-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v89) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x512 : Shape := ⟨2, ![10000, 512]⟩
abbrev S2x320000 : Shape := ⟨2, ![2, 320000]⟩
abbrev S512x2048 : Shape := ⟨2, ![512, 2048]⟩
abbrev S2048 : Shape := ⟨1, ![2048]⟩
abbrev S2048x40 : Shape := ⟨2, ![2048, 40]⟩
abbrev S40 : Shape := ⟨1, ![40]⟩
abbrev S_ : Shape := ⟨0, ![]⟩

class Facts : Prop where
  bcast_S_S10000x512 : S_.BroadcastsInDim S10000x512 (![] : Fin 0 → Fin S10000x512.rank)
  reducesTo_S10000x512_S_d0_1 : S10000x512.ReducesTo [0, 1] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2048 : S_.BroadcastsInDim S2048 (![] : Fin 0 → Fin S2048.rank)
  reducesTo_S2048_S_d0 : S2048.ReducesTo [0] S_
  bcast_S_S2048x40 : S_.BroadcastsInDim S2048x40 (![] : Fin 0 → Fin S2048x40.rank)
  reducesTo_S2048x40_S_d0_1 : S2048x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S2048x40 1) : IVec S_ 1 :=
  let main_c_5 : IVec S_ 1 := constantI S_ 1 1#1
  let main_v17 : IVec S_ 1 := (fun x v => Host.reduce IntOp.andi x v reducesTo_S2048x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S10000x512 .f32) (main_arg1 : IVec S2x320000 32) (main_arg2 : FVec F S512x2048 .f32) (main_arg3 : FVec F S2048 .f32) (main_arg4 : FVec F S2048x40 .f32) (main_arg5 : FVec F S40 .f32) : IVec S_ 1 :=
  let main_v0 : FVec F S10000x512 .f32 := Host.absf main_arg0
  let main_cst : FVec F S_ .f32 := constant S_ .f32 0x7F800000#32
  let main_v1 : FVec F S10000x512 .f32 := broadcastInDim S10000x512 ![] bcast_S_S10000x512 main_cst
  let main_v2 : IVec S10000x512 1 := cmpf .olt main_v0 main_v1
  let main_c : IVec S_ 1 := constantI S_ 1 1#1
  let main_v3 : IVec S_ 1 := (fun x v => Host.reduce IntOp.andi x v reducesTo_S10000x512_S_d0_1 h_S_) main_v2 main_c
  let main_v4 : FVec F S512x2048 .f32 := Host.absf main_arg2
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2048 .f32 := Host.absf main_arg3
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x40 .f32 := Host.absf main_arg4
  let main_cst_4 : FVec F S_ .f32 := constant S_ .f32 0x7F800000#32
  let main_v15 : FVec F S2048x40 .f32 := broadcastInDim S2048x40 ![] bcast_S_S2048x40 main_cst_4
  let main_v16 : IVec S2048x40 1 := cmpf .olt main_v14 main_v15
  fn_part1 (F := F) main_arg5 main_v13 main_v16
-- ==== Kernel.lean ====
abbrev S10000x512 : Shape := ⟨2, ![10000, 512]⟩
abbrev S2x320000 : Shape := ⟨2, ![2, 320000]⟩
abbrev S512x2048 : Shape := ⟨2, ![512, 2048]⟩
abbrev S2048 : Shape := ⟨1, ![2048]⟩
abbrev S2048x40 : Shape := ⟨2, ![2048, 40]⟩
abbrev S40 : Shape := ⟨1, ![40]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S320000x512 : Shape := ⟨2, ![320000, 512]⟩
abbrev S10000x1 : Shape := ⟨2, ![10000, 1]⟩
abbrev S1x2048 : Shape := ⟨2, ![1, 2048]⟩
abbrev S10000x2048 : Shape := ⟨2, ![10000, 2048]⟩
abbrev S1000x512 : Shape := ⟨2, ![1000, 512]⟩
abbrev S1000x2048 : Shape := ⟨2, ![1000, 2048]⟩
abbrev S1x40 : Shape := ⟨2, ![1, 40]⟩
abbrev S10000x40 : Shape := ⟨2, ![10000, 40]⟩
abbrev S1000x40 : Shape := ⟨2, ![1000, 40]⟩
abbrev S320000x40 : Shape := ⟨2, ![320000, 40]⟩

abbrev nBuf : Space → Nat
  | .hbm => 116
  | .vmem => 12
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x2048, .f32⟩
  | .hbm, ⟨3, _⟩ => ⟨S2048, .f32⟩
  | .hbm, ⟨4, _⟩ => ⟨S2048x40, .f32⟩
  | .hbm, ⟨5, _⟩ => ⟨S40, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .f32⟩
  | .hbm, ⟨11, _⟩ => ⟨S10000, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S_, .f32⟩
  | .hbm, ⟨21, _⟩ => ⟨S320000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000, .f32⟩
  | .hbm, ⟨45, _⟩ => ⟨S320000, .f32⟩
  | .hbm, ⟨46, _⟩ => ⟨S320000x1, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x512, .f32⟩
  | .hbm, ⟨56, _⟩ => ⟨S320000x512, .f32⟩
  | .hbm, ⟨57, _⟩ => ⟨S320000x512, .f32⟩
  | .hbm, ⟨58, _⟩ => ⟨S_, .f32⟩
  | .hbm, ⟨59, _⟩ => ⟨S10000x512, .f32⟩
  | .hbm, ⟨60, _⟩ => ⟨S320000x1, .i32⟩
  | .hbm, ⟨61, _⟩ => ⟨S10000x512, .f32⟩
  | .hbm, ⟨62, _⟩ => ⟨S10000, .f32⟩
  | .hbm, ⟨63, _⟩ => ⟨S10000x1, .f32⟩
  | .hbm, ⟨64, _⟩ => ⟨S10000x512, .f32⟩
  | .hbm, ⟨65, _⟩ => ⟨S10000x512, .f32⟩
  | .hbm, ⟨66, _⟩ => ⟨S10000x512, .f32⟩
  | .hbm, ⟨67, _⟩ => ⟨S1x2048, .f32⟩
  | .hbm, ⟨68, _⟩ => ⟨S10000x2048, .f32⟩
  | .hbm, ⟨69, _⟩ => ⟨S_, .f32⟩
  | .hbm, ⟨70, _⟩ => ⟨S40, .f32⟩
  | .hbm, ⟨71, _⟩ => ⟨S1x40, .f32⟩
  | .hbm, ⟨72, _⟩ => ⟨S10000x40, .f32⟩
  | .hbm, ⟨73, _⟩ => ⟨S_, .i32⟩
  | .hbm, ⟨74, _⟩ => ⟨S320000, .i32⟩
  | .hbm, ⟨75, _⟩ => ⟨S320000, .i1⟩
  | .hbm, ⟨76, _⟩ => ⟨S_, .i32⟩
  | .hbm, ⟨77, _⟩ => ⟨S320000, .i32⟩
  | .hbm, ⟨78, _⟩ => ⟨S320000, .i32⟩
  | .hbm, ⟨79, _⟩ => ⟨S320000, .i32⟩
  | .hbm, ⟨80, _⟩ => ⟨S320000x1, .i32⟩
  | .hbm, ⟨81, _⟩ => ⟨S320000, .f32⟩
  | .hbm, ⟨82, _⟩ => ⟨S_, .i32⟩
  | .hbm, ⟨83, _⟩ => ⟨S320000, .i32⟩
  | .hbm, ⟨84, _⟩ => ⟨S320000, .i1⟩
  | .hbm, ⟨85, _⟩ => ⟨S_, .i32⟩
  | .hbm, ⟨86, _⟩ => ⟨S320000, .i32⟩
  | .hbm, ⟨87, _⟩ => ⟨S320000, .i32⟩
  | .hbm, ⟨88, _⟩ => ⟨S320000, .i32⟩
  | .hbm, ⟨89, _⟩ => ⟨S320000x1, .i32⟩
  | .hbm, ⟨90, _⟩ => ⟨S320000, .f32⟩
  | .hbm, ⟨91, _⟩ => ⟨S320000, .f32⟩
  | .hbm, ⟨92, _⟩ => ⟨S320000x1, .f32⟩
  | .hbm, ⟨93, _⟩ => ⟨S_, .i32⟩
  | .hbm, ⟨94, _⟩ => ⟨S320000, .i32⟩
  | .hbm, ⟨95, _⟩ => ⟨S320000, .i1⟩
  | .hbm, ⟨96, _⟩ => ⟨S_, .i32⟩
  | .hbm, ⟨97, _⟩ => ⟨S320000, .i32⟩
  | .hbm, ⟨98, _⟩ => ⟨S320000, .i32⟩
  | .hbm, ⟨99, _⟩ => ⟨S320000, .i32⟩
  | .hbm, ⟨100, _⟩ => ⟨S320000x1, .i32⟩
  | .hbm, ⟨101, _⟩ => ⟨S320000x40, .f32⟩
  | .hbm, ⟨102, _⟩ => ⟨S320000x40, .f32⟩
  | .hbm, ⟨103, _⟩ => ⟨S320000x40, .f32⟩
  | .hbm, ⟨104, _⟩ => ⟨S_, .f32⟩
  | .hbm, ⟨105, _⟩ => ⟨S10000x40, .f32⟩
  | .hbm, ⟨106, _⟩ => ⟨S320000x1, .i32⟩
  | .hbm, ⟨107, _⟩ => ⟨S10000x40, .f32⟩
  | .hbm, ⟨108, _⟩ => ⟨S10000, .f32⟩
  | .hbm, ⟨109, _⟩ => ⟨S10000x1, .f32⟩
  | .hbm, ⟨110, _⟩ => ⟨S10000x40, .f32⟩
  | .hbm, ⟨111, _⟩ => ⟨S10000x40, .f32⟩
  | .hbm, ⟨112, _⟩ => ⟨S10000x40, .f32⟩
  | .hbm, ⟨113, _⟩ => ⟨S1x40, .f32⟩
  | .hbm, ⟨114, _⟩ => ⟨S10000x40, .f32⟩
  | .hbm, ⟨115, _⟩ => ⟨S10000x40, .f32⟩
  | .local _ .vmem, ⟨0, _⟩ => ⟨S1000x512, .f32⟩
  | .local _ .vmem, ⟨1, _⟩ => ⟨S1000x512, .f32⟩
  | .local _ .vmem, ⟨2, _⟩ => ⟨S512x2048, .f32⟩
  | .local _ .vmem, ⟨3, _⟩ => ⟨S1x2048, .f32⟩
  | .local _ .vmem, ⟨4, _⟩ => ⟨S1000x2048, .f32⟩
  | .local _ .vmem, ⟨5, _⟩ => ⟨S1000x2048, .f32⟩
  | .local _ .vmem, ⟨6, _⟩ => ⟨S1000x2048, .f32⟩
  | .local _ .vmem, ⟨7, _⟩ => ⟨S1000x2048, .f32⟩
  | .local _ .vmem, ⟨8, _⟩ => ⟨S2048x40, .f32⟩
  | .local _ .vmem, ⟨9, _⟩ => ⟨S1x40, .f32⟩
  | .local _ .vmem, ⟨10, _⟩ => ⟨S1000x40, .f32⟩
  | .local _ .vmem, ⟨11, _⟩ => ⟨S1000x40, .f32⟩
  | _, _ => ⟨S10000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_10 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_c_11 : Ref sig .tc := ⟨.hbm, 73, rfl⟩
abbrev main_v54 : Ref sig .tc := ⟨.hbm, 74, rfl⟩
abbrev main_v55 : Ref sig .tc := ⟨.hbm, 75, rfl⟩
abbrev main_c_12 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_c_13 : Ref sig .tc := ⟨.hbm, 82, rfl⟩
abbrev main_v61 : Ref sig .tc := ⟨.hbm, 83, rfl⟩
abbrev main_v62 : Ref sig .tc := ⟨.hbm, 84, rfl⟩
abbrev main_c_14 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_c_15 : Ref sig .tc := ⟨.hbm, 93, rfl⟩
abbrev main_v70 : Ref sig .tc := ⟨.hbm, 94, rfl⟩
abbrev main_v71 : Ref sig .tc := ⟨.hbm, 95, rfl⟩
abbrev main_c_16 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_17 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1000x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1000x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S2048x40 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  shapeCasts_S2048_S1x2048 : S2048.ShapeCasts S1x2048
  inb_S1000x512_S1000x512_0_0 : ∀ a, (![0, 0] : Fin 2 → Nat) a + S1000x512.size a ≤ S1000x512.size a
  h_S1000x512 : 0 < S1000x512.numel
  shapeCasts_S1000x512_S1000x512 : S1000x512.ShapeCasts S1000x512
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1000x2048 : S1x2048.Broadcasts S1000x2048
  inb_S1000x2048_S1000x2048_0_0 : ∀ a, (![0, 0] : Fin 2 → Nat) a + S1000x2048.size a ≤ S1000x2048.size a
  h_S1000x2048 : 0 < S1000x2048.numel
  bcast_S_S40 : S_.BroadcastsInDim S40 (![] : Fin 0 → Fin S40.rank)
  shapeCasts_S40_S1x40 : S40.ShapeCasts S1x40
  shapeCasts_S1000x2048_S1000x2048 : S1000x2048.ShapeCasts S1000x2048
  inb_S2048x40_S2048x40_0_0 : ∀ a, (![0, 0] : Fin 2 → Nat) a + S2048x40.size a ≤ S2048x40.size a
  h_S2048x40 : 0 < S2048x40.numel
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S1000x40 : S1x40.Broadcasts S1000x40
  inb_S1000x40_S1000x40_0_0 : ∀ a, (![0, 0] : Fin 2 → Nat) a + S1000x40.size a ≤ S1000x40.size a
  h_S1000x40 : 0 < S1000x40.numel
  bcast_S320000x1_S320000x40_0_1 : S320000x1.BroadcastsInDim S320000x40 (![0, 1] : Fin 2 → Fin S320000x40.rank)
  bcast_S_S10000x40 : S_.BroadcastsInDim S10000x40 (![] : Fin 0 → Fin S10000x40.rank)
  bcast_S10000x1_S10000x40_0_1 : S10000x1.BroadcastsInDim S10000x40 (![0, 1] : Fin 2 → Fin S10000x40.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S1000x512_S512x2048_S1000x2048_1_0_0_1_n_n_wf : DotDims.WF S1000x512 S512x2048 S1000x2048 [1] [0] [0] [1] [] []
  dot_S1000x2048_S2048x40_S1000x40_1_0_0_1_n_n_wf : DotDims.WF S1000x2048 S2048x40 S1000x40 [1] [0] [0] [1] [] []
  gather_S10000x40_S320000x1_S320000x40_1_0_n_n_0_1_140_wf : GatherDims.WF S10000x40 S320000x1 S320000x40 [1] [0] [] [0] [] 1 ![1, 40]
  scatter_S10000x40_S320000x1_S320000x40_1_0_0_1_wf : ScatterDims.WF S10000x40 S320000x1 S320000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1000x2048.size a ≤ S10000x2048.size a
  hwx0_3 : ∀ i : grid0.Coords, EltTy.bits .f32 = 32 ∨ (Rect.block (s := S10000x2048) S1000x2048.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1000x2048.size a ≤ S10000x2048.size a
  hwx1_0 : ∀ i : grid1.Coords, EltTy.bits .f32 = 32 ∨ (Rect.block (s := S10000x2048) S1000x2048.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S2048x40.size a ≤ S2048x40.size a
  hwx1_1 : ∀ i : grid1.Coords, EltTy.bits .f32 = 32 ∨ (Rect.block (s := S2048x40) S2048x40.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x40.size a ≤ S1x40.size a
  hwx1_2 : ∀ i : grid1.Coords, EltTy.bits .f32 = 32 ∨ (Rect.block (s := S1x40) S1x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1000x40.size a ≤ S10000x40.size a
  hwx1_3 : ∀ i : grid1.Coords, EltTy.bits .f32 = 32 ∨ (Rect.block (s := S10000x40) S1000x40.size (cc1_transform_3 i) (hinb1_3 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S1000x512_S512x2048_S1000x2048_1_0_0_1_n_n : DotDims S1000x512 S512x2048 S1000x2048 where
  lhsContracting := [1]
  rhsContracting := [0]
  lhsNonContracting := [0]
  rhsNonContracting := [1]
  lhsBatch := []
  rhsBatch := []
  wf := dot_S1000x512_S512x2048_S1000x2048_1_0_0_1_n_n_wf
def dot_S1000x2048_S2048x40_S1000x40_1_0_0_1_n_n : DotDims S1000x2048 S2048x40 S1000x40 where
  lhsContracting := [1]
  rhsContracting := [0]
  lhsNonContracting := [0]
  rhsNonContracting := [1]
  lhsBatch := []
  rhsBatch := []
  wf := dot_S1000x2048_S2048x40_S1000x40_1_0_0_1_n_n_wf
def gather_S10000x40_S320000x1_S320000x40_1_0_n_n_0_1_140 : GatherDims S10000x40 S320000x1 S320000x40 where
  offsetDims := [1]
  collapsedSliceDims := [0]
  operandBatchingDims := []
  startIndicesBatchingDims := []
  startIndexMap := [0]
  indexVectorDim := 1
  sliceSizes := ![1, 40]
  wf := gather_S10000x40_S320000x1_S320000x40_1_0_n_n_0_1_140_wf
def scatter_S10000x40_S320000x1_S320000x40_1_0_0_1 : ScatterDims S10000x40 S320000x1 S320000x40 where
  updateWindowDims := [1]
  insertedWindowDims := [0]
  scatterDimsToOperandDims := [0]
  indexVectorDim := 1
  wf := scatter_S10000x40_S320000x1_S320000x40_1_0_0_1_wf

abbrev win0_0 : Pipeline.Window sig grid0 :=
  Pipeline.Window.ofSpec (Memref.whole main_v48) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v50) S1000x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v50) S1000x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S2048x40.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v52) S1x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v53) S1000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x512 : Shape := ⟨2, ![10000, 512]⟩
abbrev S2x320000 : Shape := ⟨2, ![2, 320000]⟩
abbrev S512x2048 : Shape := ⟨2, ![512, 2048]⟩
abbrev S2048 : Shape := ⟨1, ![2048]⟩
abbrev S2048x40 : Shape := ⟨2, ![2048, 40]⟩
abbrev S40 : Shape := ⟨1, ![40]⟩
abbrev S1x320000 : Shape := ⟨2, ![1, 320000]⟩
abbrev S320000 : Shape := ⟨1, ![320000]⟩
abbrev S_ : Shape := ⟨0, ![]⟩
abbrev S10000 : Shape := ⟨1, ![10000]⟩
abbrev S320000x1 : Shape := ⟨2, ![320000, 1]⟩
abbrev S320000x512 : Shape := ⟨2, ![320000, 512]⟩
abbrev S10000x1 : Shape := ⟨2, ![10000, 1]⟩
abbrev S10000x2048 : Shape := ⟨2, ![10000, 2048]⟩
abbrev S1x2048 : Shape := ⟨2, ![1, 2048]⟩
abbrev S10000x40 : Shape := ⟨2, ![10000, 40]⟩
abbrev S320000x40 : Shape := ⟨2, ![320000, 40]⟩
abbrev S1x40 : Shape := ⟨2, ![1, 40]⟩

abbrev nBuf : Space → Nat
  | .hbm => 118
  | .vmem => 0
  | .smem => 0
  | _ => 0

abbrev bufTy : (tb : Table) → Fin (tcTables nBuf tb) → BufTy
  | .hbm, ⟨0, _⟩ => ⟨S10000x512, .f32⟩
  | .hbm, ⟨1, _⟩ => ⟨S2x320000, .i32⟩
  | .hbm, ⟨2, _⟩ => ⟨S512x2048, .f32⟩
  | .hbm, ⟨3, _⟩ => ⟨S2048, .f32⟩
  | .hbm, ⟨4, _⟩ => ⟨S2048x40, .f32⟩
  | .hbm, ⟨5, _⟩ => ⟨S40, .f32⟩
  | .hbm, ⟨6, _⟩ => ⟨S1x320000, .i32⟩
  | .hbm, ⟨7, _⟩ => ⟨S320000, .i32⟩
  | .hbm, ⟨8, _⟩ => ⟨S1x320000, .i32⟩
  | .hbm, ⟨9, _⟩ => ⟨S320000, .i32⟩
  | .hbm, ⟨10, _⟩ => ⟨S_, .f32⟩
  | .hbm, ⟨11, _⟩ => ⟨S10000, .f32⟩
  | .hbm, ⟨12, _⟩ => ⟨S_, .i32⟩
  | .hbm, ⟨13, _⟩ => ⟨S320000, .i32⟩
  | .hbm, ⟨14, _⟩ => ⟨S320000, .i1⟩
  | .hbm, ⟨15, _⟩ => ⟨S_, .i32⟩
  | .hbm, ⟨16, _⟩ => ⟨S320000, .i32⟩
  | .hbm, ⟨17, _⟩ => ⟨S320000, .i32⟩
  | .hbm, ⟨18, _⟩ => ⟨S320000, .i32⟩
  | .hbm, ⟨19, _⟩ => ⟨S320000x1, .i32⟩
  | .hbm, ⟨20, _⟩ => ⟨S_, .f32⟩
  | .hbm, ⟨21, _⟩ => ⟨S320000, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000, .f32⟩
  | .hbm, ⟨27, _⟩ => ⟨S_, .i32⟩
  | .hbm, ⟨28, _⟩ => ⟨S320000, .i32⟩
  | .hbm, ⟨29, _⟩ => ⟨S320000, .i1⟩
  | .hbm, ⟨30, _⟩ => ⟨S_, .i32⟩
  | .hbm, ⟨31, _⟩ => ⟨S320000, .i32⟩
  | .hbm, ⟨32, _⟩ => ⟨S320000, .i32⟩
  | .hbm, ⟨33, _⟩ => ⟨S320000, .i32⟩
  | .hbm, ⟨34, _⟩ => ⟨S320000x1, .i32⟩
  | .hbm, ⟨35, _⟩ => ⟨S320000, .f32⟩
  | .hbm, ⟨36, _⟩ => ⟨S_, .i32⟩
  | .hbm, ⟨37, _⟩ => ⟨S320000, .i32⟩
  | .hbm, ⟨38, _⟩ => ⟨S320000, .i1⟩
  | .hbm, ⟨39, _⟩ => ⟨S_, .i32⟩
  | .hbm, ⟨40, _⟩ => ⟨S320000, .i32⟩
  | .hbm, ⟨41, _⟩ => ⟨S320000, .i32⟩
  | .hbm, ⟨42, _⟩ => ⟨S320000, .i32⟩
  | .hbm, ⟨43, _⟩ => ⟨S320000x1, .i32⟩
  | .hbm, ⟨44, _⟩ => ⟨S320000, .f32⟩
  | .hbm, ⟨45, _⟩ => ⟨S320000, .f32⟩
  | .hbm, ⟨46, _⟩ => ⟨S320000x1, .f32⟩
  | .hbm, ⟨47, _⟩ => ⟨S_, .i32⟩
  | .hbm, ⟨48, _⟩ => ⟨S320000, .i32⟩
  | .hbm, ⟨49, _⟩ => ⟨S320000, .i1⟩
  | .hbm, ⟨50, _⟩ => ⟨S_, .i32⟩
  | .hbm, ⟨51, _⟩ => ⟨S320000, .i32⟩
  | .hbm, ⟨52, _⟩ => ⟨S320000, .i32⟩
  | .hbm, ⟨53, _⟩ => ⟨S320000, .i32⟩
  | .hbm, ⟨54, _⟩ => ⟨S320000x1, .i32⟩
  | .hbm, ⟨55, _⟩ => ⟨S320000x512, .f32⟩
  | .hbm, ⟨56, _⟩ => ⟨S320000x512, .f32⟩
  | .hbm, ⟨57, _⟩ => ⟨S320000x512, .f32⟩
  | .hbm, ⟨58, _⟩ => ⟨S_, .f32⟩
  | .hbm, ⟨59, _⟩ => ⟨S10000x512, .f32⟩
  | .hbm, ⟨60, _⟩ => ⟨S320000x1, .i32⟩
  | .hbm, ⟨61, _⟩ => ⟨S10000x512, .f32⟩
  | .hbm, ⟨62, _⟩ => ⟨S10000, .f32⟩
  | .hbm, ⟨63, _⟩ => ⟨S10000x1, .f32⟩
  | .hbm, ⟨64, _⟩ => ⟨S10000x512, .f32⟩
  | .hbm, ⟨65, _⟩ => ⟨S10000x512, .f32⟩
  | .hbm, ⟨66, _⟩ => ⟨S10000x512, .f32⟩
  | .hbm, ⟨67, _⟩ => ⟨S10000x2048, .f32⟩
  | .hbm, ⟨68, _⟩ => ⟨S1x2048, .f32⟩
  | .hbm, ⟨69, _⟩ => ⟨S10000x2048, .f32⟩
  | .hbm, ⟨70, _⟩ => ⟨S10000x2048, .f32⟩
  | .hbm, ⟨71, _⟩ => ⟨S_, .f32⟩
  | .hbm, ⟨72, _⟩ => ⟨S10000x2048, .f32⟩
  | .hbm, ⟨73, _⟩ => ⟨S10000x2048, .f32⟩
  | .hbm, ⟨74, _⟩ => ⟨S10000x40, .f32⟩
  | .hbm, ⟨75, _⟩ => ⟨S_, .i32⟩
  | .hbm, ⟨76, _⟩ => ⟨S320000, .i32⟩
  | .hbm, ⟨77, _⟩ => ⟨S320000, .i1⟩
  | .hbm, ⟨78, _⟩ => ⟨S_, .i32⟩
  | .hbm, ⟨79, _⟩ => ⟨S320000, .i32⟩
  | .hbm, ⟨80, _⟩ => ⟨S320000, .i32⟩
  | .hbm, ⟨81, _⟩ => ⟨S320000, .i32⟩
  | .hbm, ⟨82, _⟩ => ⟨S320000x1, .i32⟩
  | .hbm, ⟨83, _⟩ => ⟨S320000, .f32⟩
  | .hbm, ⟨84, _⟩ => ⟨S_, .i32⟩
  | .hbm, ⟨85, _⟩ => ⟨S320000, .i32⟩
  | .hbm, ⟨86, _⟩ => ⟨S320000, .i1⟩
  | .hbm, ⟨87, _⟩ => ⟨S_, .i32⟩
  | .hbm, ⟨88, _⟩ => ⟨S320000, .i32⟩
  | .hbm, ⟨89, _⟩ => ⟨S320000, .i32⟩
  | .hbm, ⟨90, _⟩ => ⟨S320000, .i32⟩
  | .hbm, ⟨91, _⟩ => ⟨S320000x1, .i32⟩
  | .hbm, ⟨92, _⟩ => ⟨S320000, .f32⟩
  | .hbm, ⟨93, _⟩ => ⟨S320000, .f32⟩
  | .hbm, ⟨94, _⟩ => ⟨S320000x1, .f32⟩
  | .hbm, ⟨95, _⟩ => ⟨S_, .i32⟩
  | .hbm, ⟨96, _⟩ => ⟨S320000, .i32⟩
  | .hbm, ⟨97, _⟩ => ⟨S320000, .i1⟩
  | .hbm, ⟨98, _⟩ => ⟨S_, .i32⟩
  | .hbm, ⟨99, _⟩ => ⟨S320000, .i32⟩
  | .hbm, ⟨100, _⟩ => ⟨S320000, .i32⟩
  | .hbm, ⟨101, _⟩ => ⟨S320000, .i32⟩
  | .hbm, ⟨102, _⟩ => ⟨S320000x1, .i32⟩
  | .hbm, ⟨103, _⟩ => ⟨S320000x40, .f32⟩
  | .hbm, ⟨104, _⟩ => ⟨S320000x40, .f32⟩
  | .hbm, ⟨105, _⟩ => ⟨S320000x40, .f32⟩
  | .hbm, ⟨106, _⟩ => ⟨S_, .f32⟩
  | .hbm, ⟨107, _⟩ => ⟨S10000x40, .f32⟩
  | .hbm, ⟨108, _⟩ => ⟨S320000x1, .i32⟩
  | .hbm, ⟨109, _⟩ => ⟨S10000x40, .f32⟩
  | .hbm, ⟨110, _⟩ => ⟨S10000, .f32⟩
  | .hbm, ⟨111, _⟩ => ⟨S10000x1, .f32⟩
  | .hbm, ⟨112, _⟩ => ⟨S10000x40, .f32⟩
  | .hbm, ⟨113, _⟩ => ⟨S10000x40, .f32⟩
  | .hbm, ⟨114, _⟩ => ⟨S10000x40, .f32⟩
  | .hbm, ⟨115, _⟩ => ⟨S1x40, .f32⟩
  | .hbm, ⟨116, _⟩ => ⟨S10000x40, .f32⟩
  | .hbm, ⟨117, _⟩ => ⟨S10000x40, .f32⟩
  | _, _ => ⟨S10000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_3 : Ref sig .tc := ⟨.hbm, 27, rfl⟩
abbrev main_v16 : Ref sig .tc := ⟨.hbm, 28, rfl⟩
abbrev main_v17 : Ref sig .tc := ⟨.hbm, 29, rfl⟩
abbrev main_c_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_c_5 : Ref sig .tc := ⟨.hbm, 36, rfl⟩
abbrev main_v23 : Ref sig .tc := ⟨.hbm, 37, rfl⟩
abbrev main_v24 : Ref sig .tc := ⟨.hbm, 38, rfl⟩
abbrev main_c_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_9 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_call0_cst : Ref sig .tc := ⟨.hbm, 71, rfl⟩
abbrev main_call0_v0 : Ref sig .tc := ⟨.hbm, 72, rfl⟩
abbrev main_v53 : Ref sig .tc := ⟨.hbm, 73, rfl⟩
abbrev main_v54 : Ref sig .tc := ⟨.hbm, 74, rfl⟩
abbrev main_c_10 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_12 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_c_14 : Ref sig .tc := ⟨.hbm, 95, rfl⟩
abbrev main_v71 : Ref sig .tc := ⟨.hbm, 96, rfl⟩
abbrev main_v72 : Ref sig .tc := ⟨.hbm, 97, rfl⟩
abbrev main_c_15 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_cst_16 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  bcast_S_S10000 : S_.BroadcastsInDim S10000 (![] : Fin 0 → Fin S10000.rank)
  bcast_S_S320000 : S_.BroadcastsInDim S320000 (![] : Fin 0 → Fin S320000.rank)
  bcast_S320000_S320000x1_0 : S320000.BroadcastsInDim S320000x1 (![0] : Fin 1 → Fin S320000x1.rank)
  bcast_S320000x1_S320000x512_0_1 : S320000x1.BroadcastsInDim S320000x512 (![0, 1] : Fin 2 → Fin S320000x512.rank)
  bcast_S_S10000x512 : S_.BroadcastsInDim S10000x512 (![] : Fin 0 → Fin S10000x512.rank)
  bcast_S10000_S10000x1_0 : S10000.BroadcastsInDim S10000x1 (![0] : Fin 1 → Fin S10000x1.rank)
  bcast_S10000x1_S10000x512_0_1 : S10000x1.BroadcastsInDim S10000x512 (![0, 1] : Fin 2 → Fin S10000x512.rank)
  bcast_S2048_S1x2048_1 : S2048.BroadcastsInDim S1x2048 (![1] : Fin 1 → Fin S1x2048.rank)
  bcast_S1x2048_S10000x2048_0_1 : S1x2048.BroadcastsInDim S10000x2048 (![0, 1] : Fin 2 → Fin S10000x2048.rank)
  bcast_S_S10000x2048 : S_.BroadcastsInDim S10000x2048 (![] : Fin 0 → Fin S10000x2048.rank)
  bcast_S320000x1_S320000x40_0_1 : S320000x1.BroadcastsInDim S320000x40 (![0, 1] : Fin 2 → Fin S320000x40.rank)
  bcast_S_S10000x40 : S_.BroadcastsInDim S10000x40 (![] : Fin 0 → Fin S10000x40.rank)
  bcast_S10000x1_S10000x40_0_1 : S10000x1.BroadcastsInDim S10000x40 (![0, 1] : Fin 2 → Fin S10000x40.rank)
  bcast_S40_S1x40_1 : S40.BroadcastsInDim S1x40 (![1] : Fin 1 → Fin S1x40.rank)
  bcast_S1x40_S10000x40_0_1 : S1x40.BroadcastsInDim S10000x40 (![0, 1] : Fin 2 → Fin S10000x40.rank)
  scatter_S10000_S320000x1_S320000_n_0_0_1_wf : ScatterDims.WF S10000 S320000x1 S320000 [] [0] [0] 1
  gather_S10000_S320000x1_S320000_n_0_n_n_0_1_1_wf : GatherDims.WF S10000 S320000x1 S320000 [] [0] [] [0] [] 1 ![1]
  gather_S10000x512_S320000x1_S320000x512_1_0_n_n_0_1_1512_wf : GatherDims.WF S10000x512 S320000x1 S320000x512 [1] [0] [] [0] [] 1 ![1, 512]
  scatter_S10000x512_S320000x1_S320000x512_1_0_0_1_wf : ScatterDims.WF S10000x512 S320000x1 S320000x512 [1] [0] [0] 1
  dot_S10000x512_S512x2048_S10000x2048_1_0_0_1_n_n_wf : DotDims.WF S10000x512 S512x2048 S10000x2048 [1] [0] [0] [1] [] []
  dot_S10000x2048_S2048x40_S10000x40_1_0_0_1_n_n_wf : DotDims.WF S10000x2048 S2048x40 S10000x40 [1] [0] [0] [1] [] []
  gather_S10000x40_S320000x1_S320000x40_1_0_n_n_0_1_140_wf : GatherDims.WF S10000x40 S320000x1 S320000x40 [1] [0] [] [0] [] 1 ![1, 40]
  scatter_S10000x40_S320000x1_S320000x40_1_0_0_1_wf : ScatterDims.WF S10000x40 S320000x1 S320000x40 [1] [0] [0] 1

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def gather_S10000_S320000x1_S320000_n_0_n_n_0_1_1 : GatherDims S10000 S320000x1 S320000 where
  offsetDims := []
  collapsedSliceDims := [0]
  operandBatchingDims := []
  startIndicesBatchingDims := []
  startIndexMap := [0]
  indexVectorDim := 1
  sliceSizes := ![1]
  wf := gather_S10000_S320000x1_S320000_n_0_n_n_0_1_1_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def scatter_S10000x512_S320000x1_S320000x512_1_0_0_1 : ScatterDims S10000x512 S320000x1 S320000x512 where
  updateWindowDims := [1]
  insertedWindowDims := [0]
  scatterDimsToOperandDims := [0]
  indexVectorDim := 1
  wf := scatter_S10000x512_S320000x1_S320000x512_1_0_0_1_wf
def dot_S10000x512_S512x2048_S10000x2048_1_0_0_1_n_n : DotDims S10000x512 S512x2048 S10000x2048 where
  lhsContracting := [1]
  rhsContracting := [0]
  lhsNonContracting := [0]
  rhsNonContracting := [1]
  lhsBatch := []
  rhsBatch := []
  wf := dot_S10000x512_S512x2048_S10000x2048_1_0_0_1_n_n_wf
def dot_S10000x2048_S2048x40_S10000x40_1_0_0_1_n_n : DotDims S10000x2048 S2048x40 S10000x40 where
  lhsContracting := [1]
  rhsContracting := [0]
  lhsNonContracting := [0]
  rhsNonContracting := [1]
  lhsBatch := []
  rhsBatch := []
  wf := dot_S10000x2048_S2048x40_S10000x40_1_0_0_1_n_n_wf
def gather_S10000x40_S320000x1_S320000x40_1_0_n_n_0_1_140 : GatherDims S10000x40 S320000x1 S320000x40 where
  offsetDims := [1]
  collapsedSliceDims := [0]
  operandBatchingDims := []
  startIndicesBatchingDims := []
  startIndexMap := [0]
  indexVectorDim := 1
  sliceSizes := ![1, 40]
  wf := gather_S10000x40_S320000x1_S320000x40_1_0_n_n_0_1_140_wf
def scatter_S10000x40_S320000x1_S320000x40_1_0_0_1 : ScatterDims S10000x40 S320000x1 S320000x40 where
  updateWindowDims := [1]
  insertedWindowDims := [0]
  scatterDimsToOperandDims := [0]
  indexVectorDim := 1
  wf := scatter_S10000x40_S320000x1_S320000x40_1_0_0_1_wf

class Facts : Prop extends Facts₀ where

variable [Facts]
-- ==== Proof.KernelRun.lean ====
/-
  The run of the two-layer program with its RESULT named.

  The program is five stretches in a row: the host operations that build the normalised aggregate of the node
  features, the first dense layer (a grid of ten row blocks), the three host operations that build a zero bias,
  the second dense layer (ten row blocks again), and the host operations that propagate the second layer's output
  over the edges and add the class bias.  The contents of the core's buffers at the boundary after each stretch are
  a fold from the launch memory; the last boundary is `Gen.W5`.  Every weakly fair execution ends with every
  unscoped buffer at that last boundary's contents, so in particular the result buffer holds `Gen.W5 … ` read at the
  result's reference, and the six argument arrays are as launched.  The later modules read that fold back, stretch by
  stretch, to a function of the arguments.
-/
import proofs.«154328_j48473000903026_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the arguments unchanged: the five segments launched together, the last thread state
    read against the final memory. -/
theorem run_result : θ_run defs (onTc (τ := τ) (main (F := F))) ⟨m, fun _ => 0, ρ⟩ (fun r => ∀ c : Dev nD,
      r.2.mem ((c.tc : Thread nD τ).loc main_v89) = W5 m ρ c (Proc.devRef .tc main_v89)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v89 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.KernelIdeal.RunValue

end
-- ==== Proof.Tail.lean ====
/-
  The graph propagation both programs end with, as ONE function.

  Given a node feature array `hw` (10000 × 40), the edge sources `src` and targets `dst` (320000 node numbers each),
  the inverse square roots of the degrees `dinv` and the class bias `b2`, the result at node `i`, class `j` is
      ∑_{edges e with dst e = i} dinv[src e] · dinv[dst e] · hw[src e, j]  +  dinv[i]² · hw[i, j]  +  b2[j],
  written with the host operations it is computed by: the endpoints wrapped the way array indexing wraps a negative
  index (the node count is added), two gathers of `dinv`, a gather of the rows of `hw`, a scatter-add into a zero
  array, the self-loop term and the bias broadcast over the rows.  Both programs apply exactly these operations to
  the second layer's output, so the certificate only ever needs that the arrays going IN are equal: the function is
  never opened.
-/
import proofs.«154328_j48473000903026_1_alg».proof.Proof.Gen.KernelIdeal

noncomputable section

namespace Cert.Gcn

open Idealize.ShloMosaic Cert.KernelIdeal Cert.KernelIdeal.Facts₀

variable {F : FTy → Type} [FloatOps F]

/-- The contents of a buffer of shape `s` and element type `e`. -/
abbrev Arr (F : FTy → Type) [FloatOps F] (s : Shape) (e : EltTy) : Type := (⟨s, e⟩ : BufTy).Contents (Elt F)

/-- An endpoint list as one column of start indices: a negative node number has the node count added. -/
def startIdx (e : Arr F S320000 .i32) : Arr F S320000x1 .i32 :=
  (broadcastInDim S320000x1 ![0] bcast_S320000_S320000x1_0 : Arr F S320000 .i32 → Arr F S320000x1 .i32)
    ((select : Arr F S320000 .i1 → Arr F S320000 .i32 → Arr F S320000 .i32 → Arr F S320000 .i32)
      ((cmpi .slt : Arr F S320000 .i32 → Arr F S320000 .i32 → Arr F S320000 .i1) e
        ((broadcastInDim S320000 ![] bcast_S_S320000 : Arr F S_ .i32 → Arr F S320000 .i32) (constantI S_ 32 0#32)))
      ((addi : Arr F S320000 .i32 → Arr F S320000 .i32 → Arr F S320000 .i32) e
        ((broadcastInDim S320000 ![] bcast_S_S320000 : Arr F S_ .i32 → Arr F S320000 .i32) (constantI S_ 32 10000#32)))
      e)

/-- The edge weights `dinv[src e] · dinv[dst e]`. -/
def edgeCoef (src dst : Arr F S320000 .i32) (dinv : Arr F S10000 .f32) : Arr F S320000 .f32 :=
  (mulf : Arr F S320000 .f32 → Arr F S320000 .f32 → Arr F S320000 .f32)
    (Host.gather gather_S10000_S320000x1_S320000_n_0_n_n_0_1_1 dinv (startIdx src))
    (Host.gather gather_S10000_S320000x1_S320000_n_0_n_n_0_1_1 dinv (startIdx dst))

/-- The propagation of `hw` over the edges with the self loops, plus the class bias. -/
def propagate (hw : Arr F S10000x40 .f32) (src dst : Arr F S320000 .i32) (dinv : Arr F S10000 .f32)
    (b2 : Arr F S40 .f32) : Arr F S10000x40 .f32 :=
  (addf : Arr F S10000x40 .f32 → Arr F S10000x40 .f32 → Arr F S10000x40 .f32)
    ((addf : Arr F S10000x40 .f32 → Arr F S10000x40 .f32 → Arr F S10000x40 .f32)
      (Host.scatterAdd scatter_S10000x40_S320000x1_S320000x40_1_0_0_1
        ((broadcastInDim S10000x40 ![] bcast_S_S10000x40 : Arr F S_ .f32 → Arr F S10000x40 .f32) (constant S_ .f32 0x00000000#32))
        ((broadcastInDim S320000x1 ![0] bcast_S320000_S320000x1_0 : Arr F S320000 .i32 → Arr F S320000x1 .i32) dst)
        ((mulf : Arr F S320000x40 .f32 → Arr F S320000x40 .f32 → Arr F S320000x40 .f32)
          (Host.gather gather_S10000x40_S320000x1_S320000x40_1_0_n_n_0_1_140 hw (startIdx src))
          ((broadcastInDim S320000x40 ![0, 1] bcast_S320000x1_S320000x40_0_1 : Arr F S320000x1 .f32 → Arr F S320000x40 .f32)
            ((broadcastInDim S320000x1 ![0] bcast_S320000_S320000x1_0 : Arr F S320000 .f32 → Arr F S320000x1 .f32)
              (edgeCoef src dst dinv)))))
      ((mulf : Arr F S10000x40 .f32 → Arr F S10000x40 .f32 → Arr F S10000x40 .f32) hw
        ((broadcastInDim S10000x40 ![0, 1] bcast_S10000x1_S10000x40_0_1 : Arr F S10000x1 .f32 → Arr F S10000x40 .f32)
          ((broadcastInDim S10000x1 ![0] bcast_S10000_S10000x1_0 : Arr F S10000 .f32 → Arr F S10000x1 .f32)
            ((mulf : Arr F S10000 .f32 → Arr F S10000 .f32 → Arr F S10000 .f32) dinv dinv)))))
    ((broadcastInDim S10000x40 ![0, 1] bcast_S1x40_S10000x40_0_1 : Arr F S1x40 .f32 → Arr F S10000x40 .f32)
      ((broadcastInDim S1x40 ![1] bcast_S40_S1x40_1 : Arr F S40 .f32 → Arr F S1x40 .f32) b2))

end Cert.Gcn

end
-- ==== Proof.DenseSpec.lean ====
/-
  The two dense layers of the graph network, as functions of whole arrays, entry by entry, on the extended reals.

  Layer one takes the aggregated node features `A` (10000 × 512), the weights `W` (512 × 2048) and a bias
  indexed by the output column, and is `max (∑ₖ A[p,k] · W[k,q] + bias[q], 0)` at row `p`, column `q`.
  Layer two takes the hidden activations `H` (10000 × 2048) and the weights `W` (2048 × 40) and is the plain
  product `∑ₖ H[p,k] · W[k,q]`.  A product accumulated into a zero array, or with a zero bias added, is the same
  number: `0 + x = x` and `x + 0 = x` hold for every extended real, the infinities included, so neither form
  needs the entries to be finite.  The zero is kept as the float word it is printed as; it is never evaluated
  except where it is added.
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- Layer one at row `p` and column `q`: the row of `A` against the column of `W`, plus the column's bias,
    clamped below at zero. -/
def dense1At (A : FVec Ideal ⟨2, ![10000, 512]⟩ .f32) (W : FVec Ideal ⟨2, ![512, 2048]⟩ .f32)
    (bias : Fin 2048 → EReal) (p : Fin 10000) (q : Fin 2048) : EReal :=
  max ((∑ k : Fin 512, A (ix2 p k) * W (ix2 k q)) + bias q) (Ideal.ofBits .f32 0x00000000#32)

/-- Layer one as a whole array. -/
def dense1 (A : FVec Ideal ⟨2, ![10000, 512]⟩ .f32) (W : FVec Ideal ⟨2, ![512, 2048]⟩ .f32)
    (bias : Fin 2048 → EReal) : FVec Ideal ⟨2, ![10000, 2048]⟩ .f32 :=
  fun i => dense1At A W bias (i 0) (i 1)

theorem dense1_ix2 (A : FVec Ideal ⟨2, ![10000, 512]⟩ .f32) (W : FVec Ideal ⟨2, ![512, 2048]⟩ .f32)
    (bias : Fin 2048 → EReal) (p : Fin 10000) (q : Fin 2048) :
    dense1 A W bias (ix2 p q) = dense1At A W bias p q := rfl

/-- Layer two at row `p` and column `q`: the row of `H` against the column of `W`. -/
def dense2At (H : FVec Ideal ⟨2, ![10000, 2048]⟩ .f32) (W : FVec Ideal ⟨2, ![2048, 40]⟩ .f32)
    (p : Fin 10000) (q : Fin 40) : EReal :=
  ∑ k : Fin 2048, H (ix2 p k) * W (ix2 k q)

/-- Layer two as a whole array. -/
def dense2 (H : FVec Ideal ⟨2, ![10000, 2048]⟩ .f32) (W : FVec Ideal ⟨2, ![2048, 40]⟩ .f32) :
    FVec Ideal ⟨2, ![10000, 40]⟩ .f32 :=
  fun i => dense2At H W (i 0) (i 1)

theorem dense2_ix2 (H : FVec Ideal ⟨2, ![10000, 2048]⟩ .f32) (W : FVec Ideal ⟨2, ![2048, 40]⟩ .f32)
    (p : Fin 10000) (q : Fin 40) :
    dense2 H W (ix2 p q) = dense2At H W p q := rfl

/-- Adding the zero word changes no extended real. -/
theorem add_zero_word (x : EReal) : x + Ideal.ofBits .f32 0x00000000#32 = x := by
  rw [Ideal.ofBits_zero_f32, add_zero]

end Cert.Gcn

end
-- ==== Proof.Layer1Block.lean ====
/-
  The first dense layer as the pipeline computes it: ten row blocks of 1000 rows.

  At grid point `t` the body loads rows `1000·t … 1000·t + 999` of the aggregated features, all of the weights and
  the one-row bias, and stores `max (x·w + bias, 0)` for those rows.  At row `p` of the block and column `q` that
  is `max (∑ₖ x[p,k] · w[k,q] + bias[0,q], 0)`: the product is accumulated into a zero array, so it is the bare
  sum, and the change of float format before the product is the identity on the extended reals.  Row `p` of block
  `t` is row `1000·t + p` of the whole array, and the ten blocks cover the 10000 rows, so after the region the
  output array holds layer one of the arrays the region was entered with — whatever those are.
-/
import proofs.«154328_j48473000903026_1_alg».proof.Proof.Gen.KernelIdeal.Frame
import proofs.«154328_j48473000903026_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer1

open Cert.KernelIdeal Cert.KernelIdeal.Gen Cert.KernelIdeal.Facts₀ Cert.Gcn
open Idealize.ShloMosaic Idealize.ShloMosaic.TcCoe Idealize.ShloMosaic.ValueIdx Idealize.SL.Sem
open Idealize.ShloMosaic.Pipeline (Dat)

/-! ## The block product's operand indices -/

theorem lhs_row (j : S1000x2048.Idx) (r : dot_S1000x512_S512x2048_S1000x2048_1_0_0_1_n_n.contr.Idx) :
    (dot_S1000x512_S512x2048_S1000x2048_1_0_0_1_n_n.lhsIdx j r 0).val = (j 0).val := by
  unfold DotDims.lhsIdx
  rw [dif_neg (show ¬(0 : Fin S1000x512.rank) ∈ dot_S1000x512_S512x2048_S1000x2048_1_0_0_1_n_n.lhsBatch by decide),
    dif_pos (show (0 : Fin S1000x512.rank) ∈ dot_S1000x512_S512x2048_S1000x2048_1_0_0_1_n_n.lhsNonContracting by decide)]
  rfl
theorem lhs_contr (j : S1000x2048.Idx) (r : dot_S1000x512_S512x2048_S1000x2048_1_0_0_1_n_n.contr.Idx) :
    (dot_S1000x512_S512x2048_S1000x2048_1_0_0_1_n_n.lhsIdx j r 1).val = (r ⟨0, by decide⟩).val :=
  dot_S1000x512_S512x2048_S1000x2048_1_0_0_1_n_n.lhsIdx_val_of_single rfl j r
theorem rhs_contr (j : S1000x2048.Idx) (r : dot_S1000x512_S512x2048_S1000x2048_1_0_0_1_n_n.contr.Idx) :
    (dot_S1000x512_S512x2048_S1000x2048_1_0_0_1_n_n.rhsIdx j r 0).val = (r ⟨0, by decide⟩).val :=
  dot_S1000x512_S512x2048_S1000x2048_1_0_0_1_n_n.rhsIdx_val_of_single rfl j r
theorem rhs_col (j : S1000x2048.Idx) (r : dot_S1000x512_S512x2048_S1000x2048_1_0_0_1_n_n.contr.Idx) :
    (dot_S1000x512_S512x2048_S1000x2048_1_0_0_1_n_n.rhsIdx j r 1).val = (j 1).val := by
  unfold DotDims.rhsIdx
  rw [dif_neg (show ¬(1 : Fin S512x2048.rank) ∈ dot_S1000x512_S512x2048_S1000x2048_1_0_0_1_n_n.rhsBatch by decide),
    dif_pos (show (1 : Fin S512x2048.rank) ∈ dot_S1000x512_S512x2048_S1000x2048_1_0_0_1_n_n.rhsNonContracting by decide)]
  rfl

/-! ## The body's arithmetic at one entry of the block -/

/-- The block product into the zero array, at row `p` and column `q`, is the sum over the 512 shared coordinates. -/
theorem product_at (a : FVec Ideal S1000x512 .bf16) (w : FVec Ideal S512x2048 .bf16) (p : Fin 1000) (q : Fin 2048) :
    FloatOps.matmul dot_S1000x512_S512x2048_S1000x2048_1_0_0_1_n_n none a w (constant S1000x2048 .f32 0x00000000#32) (ix2 p q)
      = ∑ k : Fin 512, a (ix2 p k) * w (ix2 k q) := by
  rw [Ideal.matmul_constant_zero_apply,
    ← Equiv.sum_comp (contrEquiv1 dot_S1000x512_S512x2048_S1000x2048_1_0_0_1_n_n 512 rfl rfl).symm]
  refine Finset.sum_congr rfl fun k _ => ?_
  have hk := contrEquiv1_symm_val dot_S1000x512_S512x2048_S1000x2048_1_0_0_1_n_n 512 rfl rfl k
  have el : dot_S1000x512_S512x2048_S1000x2048_1_0_0_1_n_n.lhsIdx (ix2 p q)
      ((contrEquiv1 dot_S1000x512_S512x2048_S1000x2048_1_0_0_1_n_n 512 rfl rfl).symm k) = ix2 p k :=
    funext fun ax => Fin.ext (by
      match ax with
      | ⟨0, _⟩ => exact lhs_row _ _
      | ⟨1, _⟩ => exact (lhs_contr _ _).trans hk)
  have er : dot_S1000x512_S512x2048_S1000x2048_1_0_0_1_n_n.rhsIdx (ix2 p q)
      ((contrEquiv1 dot_S1000x512_S512x2048_S1000x2048_1_0_0_1_n_n 512 rfl rfl).symm k) = ix2 k q :=
    funext fun ax => Fin.ext (by
      match ax with
      | ⟨0, _⟩ => exact (rhs_contr _ _).trans hk
      | ⟨1, _⟩ => exact rhs_col _ _)
  rw [el, er]

/-- The one-row bias, broadcast down the block, read at row `p`, column `q`: the bias at column `q`. -/
theorem bias_at (b : Vec Ideal S1x2048 .f32) (p : Fin 1000) (q : Fin 2048) :
    broadcastTo S1000x2048 (shapeCast S1x2048 b Facts₀.shapeCasts_S1x2048_S1x2048) Facts₀.broadcasts_S1x2048_S1000x2048 (ix2 p q)
      = b (ix2 0 q) := by
  rw [shapeCast_self]
  exact broadcastTo_apply b _ (ix2 p q) (ix2 0 q) (fun ax => by
    match ax with
    | ⟨0, _⟩ => rfl
    | ⟨1, _⟩ => rfl)

/-- What the body stores at row `p`, column `q` of the block, from the three blocks it loaded. -/
theorem stored_at (x0 : Vec Ideal S1000x512 .f32) (x1 : Vec Ideal S512x2048 .f32) (x2 : Vec Ideal S1x2048 .f32)
    (p : Fin 1000) (q : Fin 2048) :
    k0_pay1 (F := Ideal) x0 x1 x2 (ix2 p q)
      = max ((∑ k : Fin 512, x0 (ix2 p k) * x1 (ix2 k q)) + x2 (ix2 0 q)) (Ideal.ofBits .f32 0x00000000#32) := by
  unfold k0_pay1
  refine congrArg₂ max (congrArg₂ (· + ·) ?_ (bias_at x2 p q)) rfl
  refine (product_at _ _ p q).trans ?_
  refine Finset.sum_congr rfl fun k _ => ?_
  show shapeCast S1000x512 x0 Facts₀.shapeCasts_S1000x512_S1000x512 (ix2 p k) * x1 (ix2 k q) = _
  rw [shapeCast_self]

/-! ## From the ten blocks to the whole array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the feature rows and the output rows move together, block
    `t` along the rows; the weights and the bias are one block, fetched whole. -/
theorem block_indices : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Layer one of the arrays the region is entered with: the features, the weights, and the one-row bias read along
    its row. -/
def entered (c : Dev nD) : S10000x2048.Idx → EReal :=
  dense1 (V c main_v48) (V c main_arg2) (fun q => V c main_v49 (ix2 0 q))

/-- Row `p` of the feature block at point `t` is row `1000·t + p` of the feature array. -/
theorem feature_read (c : Dev nD) (t : Fin cfg0.N) (p : Fin 1000) (k : Fin 512) (r : Fin 10000)
    (hr : r.val = t.val * 1000 + p.val) :
    iblk0 V c 0 t (ix2 p k) = V c main_v48 (ix2 r k) := by
  obtain ⟨e00, e01, -, -, -, -, e30, -⟩ := block_indices t
  show V c main_v48 (((cfg0.win 0).blk t).view.emb (ix2 p k)) = V c main_v48 (ix2 r k)
  refine congrArg (V c main_v48) (funext fun a => Fin.ext ?_)
  match a with
  | ⟨0, _⟩ => show win0_0.index t (0 : Fin 2) * 1000 + 1 * p.val = r.val; omega
  | ⟨1, _⟩ => show win0_0.index t (1 : Fin 2) * 512 + 1 * k.val = k.val; omega

/-- The weight block at every point is the whole weight array. -/
theorem weight_read (c : Dev nD) (t : Fin cfg0.N) (k : Fin 512) (q : Fin 2048) :
    iblk0 V c 1 t (ix2 k q) = V c main_arg2 (ix2 k q) := by
  obtain ⟨-, -, e10, e11, -, -, -, -⟩ := block_indices t
  show V c main_arg2 (((cfg0.win 1).blk t).view.emb (ix2 k q)) = V c main_arg2 (ix2 k q)
  refine congrArg (V c main_arg2) (funext fun a => Fin.ext ?_)
  match a with
  | ⟨0, _⟩ => show win0_1.index t (0 : Fin 2) * 512 + 1 * k.val = k.val; omega
  | ⟨1, _⟩ => show win0_1.index t (1 : Fin 2) * 2048 + 1 * q.val = q.val; omega

/-- The bias block at every point is the whole one-row bias. -/
theorem bias_read (c : Dev nD) (t : Fin cfg0.N) (q : Fin 2048) :
    iblk0 V c 2 t (ix2 0 q) = V c main_v49 (ix2 0 q) := by
  obtain ⟨-, -, -, -, e20, e21, -, -⟩ := block_indices t
  show V c main_v49 (((cfg0.win 2).blk t).view.emb (ix2 0 q)) = V c main_v49 (ix2 0 q)
  refine congrArg (V c main_v49) (funext fun a => Fin.ext ?_)
  match a with
  | ⟨0, _⟩ => show win0_2.index t (0 : Fin 2) * 1 + 1 * 0 = 0; omega
  | ⟨1, _⟩ => show win0_2.index t (1 : Fin 2) * 2048 + 1 * q.val = q.val; omega

/-- What grid point `t` writes back is block `t` of layer one of the entered arrays. -/
theorem flushed_eq (c : Dev nD) (t : Fin cfg0.N) :
    (dat0 V c).flushed 3 t = ((cfg0.win 3).blk t).view.read (Elt Ideal) (entered V c) := by
  show (cfg0.win 3).cut (grid0.coords t) ((dat0 V c).after 3 t) = _
  rw [after0_3]
  unfold out0_3
  rw [View.canon_unit_zero zero_offsets]
  simp only [View.ld_unit_zero (S := S1000x512) zero_offsets, View.ld_unit_zero (S := S512x2048) zero_offsets,
    View.ld_unit_zero (S := S1x2048) zero_offsets]
  obtain ⟨-, -, -, -, -, -, e30, e31⟩ := block_indices t
  funext j
  obtain ⟨p, q, rfl⟩ : ∃ (p : Fin 1000) (q : Fin 2048), (j : S1000x2048.Idx) = ix2 p q := ⟨j 0, j 1, eq_ix2 _⟩
  have ht : t.val < 10 := by have h : t.val < grid0.N := t.isLt; have hN : grid0.N = 10 := N_0; omega
  have hp : p.val < 1000 := p.isLt
  have hr : t.val * 1000 + p.val < 10000 := by omega
  have row : ((cfg0.win 3).blk t).view.emb (ix2 p q) = ix2 (⟨t.val * 1000 + p.val, hr⟩ : Fin 10000) q :=
    funext fun a => Fin.ext (by
      match a with
      | ⟨0, _⟩ => show win0_3.index t (0 : Fin 2) * 1000 + 1 * p.val = t.val * 1000 + p.val; omega
      | ⟨1, _⟩ => show win0_3.index t (1 : Fin 2) * 2048 + 1 * q.val = q.val; omega)
  show k0_pay1 (iblk0 V c 0 t) (iblk0 V c 1 t) (iblk0 V c 2 t) (ix2 p q)
    = entered V c (((cfg0.win 3).blk t).view.emb (ix2 p q))
  rw [row]
  refine (stored_at (iblk0 V c 0 t) (iblk0 V c 1 t) (iblk0 V c 2 t) p q).trans ?_
  simp only [feature_read V c t p _ ⟨t.val * 1000 + p.val, hr⟩ rfl, weight_read V c t, bias_read V c t]
  rfl

/-- An index of the output array is in point `t`'s block iff each coordinate is in the block's range. -/
theorem mem_block (t : Fin cfg0.N) (i : S10000x2048.Idx) :
    i ∈ ((cfg0.win 3).blk t).view.set ↔ ∀ a : Fin 2, win0_3.index t a * S1000x2048.size a ≤ (i a).val
      ∧ (i a).val < win0_3.index t a * S1000x2048.size a + S1000x2048.size a := by
  show i ∈ ((View.whole main_v50).slice (win0_3.rect t)).set ↔ _
  rw [View.set_slice_whole, Rect.mem_set_unit]
  exact Iff.rfl

/-- Every index of the output array is in the block of the point its row falls in: row `r` is in block `r / 1000`. -/
theorem covered (i : S10000x2048.Idx) :
    ∃ t : Fin cfg0.N, (cfg0.win 3).flush t = true ∧ i ∈ ((cfg0.win 3).blk t).view.set := by
  have hi0 : (i 0).val < 10000 := (i 0).isLt
  have hi1 : (i 1).val < 2048 := (i 1).isLt
  have hN : grid0.N = 10 := N_0
  have hlt : (i 0).val / 1000 < grid0.N := by omega
  refine ⟨⟨(i 0).val / 1000, hlt⟩, flush0_3 _, ?_⟩
  obtain ⟨-, -, -, -, -, -, e30, e31⟩ := block_indices ⟨(i 0).val / 1000, hlt⟩
  have e30' : win0_3.index ⟨(i 0).val / 1000, hlt⟩ (0 : Fin 2) = (i 0).val / 1000 := e30
  rw [mem_block]
  intro a
  match a with
  | ⟨0, _⟩ =>
    show win0_3.index ⟨(i 0).val / 1000, hlt⟩ (0 : Fin 2) * 1000 ≤ (i 0).val
      ∧ (i 0).val < win0_3.index ⟨(i 0).val / 1000, hlt⟩ (0 : Fin 2) * 1000 + 1000
    omega
  | ⟨1, _⟩ =>
    show win0_3.index ⟨(i 0).val / 1000, hlt⟩ (1 : Fin 2) * 2048 ≤ (i 1).val
      ∧ (i 1).val < win0_3.index ⟨(i 0).val / 1000, hlt⟩ (1 : Fin 2) * 2048 + 2048
    omega

/-- After the region the output array holds layer one of the arrays the region was entered with. -/
theorem final (c : Dev nD) : (dat0 V c).arrAt 3 cfg0.N = entered V c :=
  (dat0 V c).arrAt_eq_of_cover 3 (entered V c) (fun t _ => flushed_eq V c t) covered

end Cert.KernelIdeal.Layer1

end
-- ==== Proof.Layer2Block.lean ====
/-
  The second dense layer as the pipeline computes it: ten row blocks of 1000 rows.

  At grid point `t` the body loads rows `1000·t … 1000·t + 999` of the hidden activations, all of the weights and a
  one-row bias, and stores `h·w + bias` for those rows: at row `p` of the block and column `q`,
  `∑ₖ h[p,k] · w[k,q] + bias[0,q]` (a product accumulated into a zero array is the bare sum; the change of float
  format before it is the identity on the extended reals).  The ten blocks cover the 10000 rows, so after the region
  the output array holds that function of the arrays the region was entered with.  Where the entered bias row is
  the zero word, as it is in this program, the bias term drops: adding zero changes no extended real.
-/
import proofs.«154328_j48473000903026_1_alg».proof.Proof.Gen.KernelIdeal.Frame
import proofs.«154328_j48473000903026_1_alg».proof.Proof.DenseSpec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Layer2

open Cert.KernelIdeal Cert.KernelIdeal.Gen Cert.KernelIdeal.Facts₀ Cert.Gcn
open Idealize.ShloMosaic Idealize.ShloMosaic.TcCoe Idealize.ShloMosaic.ValueIdx Idealize.SL.Sem
open Idealize.ShloMosaic.Pipeline (Dat)

/-! ## The block product's operand indices -/

theorem lhs_row (j : S1000x40.Idx) (r : dot_S1000x2048_S2048x40_S1000x40_1_0_0_1_n_n.contr.Idx) :
    (dot_S1000x2048_S2048x40_S1000x40_1_0_0_1_n_n.lhsIdx j r 0).val = (j 0).val := by
  unfold DotDims.lhsIdx
  rw [dif_neg (show ¬(0 : Fin S1000x2048.rank) ∈ dot_S1000x2048_S2048x40_S1000x40_1_0_0_1_n_n.lhsBatch by decide),
    dif_pos (show (0 : Fin S1000x2048.rank) ∈ dot_S1000x2048_S2048x40_S1000x40_1_0_0_1_n_n.lhsNonContracting by decide)]
  rfl
theorem lhs_contr (j : S1000x40.Idx) (r : dot_S1000x2048_S2048x40_S1000x40_1_0_0_1_n_n.contr.Idx) :
    (dot_S1000x2048_S2048x40_S1000x40_1_0_0_1_n_n.lhsIdx j r 1).val = (r ⟨0, by decide⟩).val :=
  dot_S1000x2048_S2048x40_S1000x40_1_0_0_1_n_n.lhsIdx_val_of_single rfl j r
theorem rhs_contr (j : S1000x40.Idx) (r : dot_S1000x2048_S2048x40_S1000x40_1_0_0_1_n_n.contr.Idx) :
    (dot_S1000x2048_S2048x40_S1000x40_1_0_0_1_n_n.rhsIdx j r 0).val = (r ⟨0, by decide⟩).val :=
  dot_S1000x2048_S2048x40_S1000x40_1_0_0_1_n_n.rhsIdx_val_of_single rfl j r
theorem rhs_col (j : S1000x40.Idx) (r : dot_S1000x2048_S2048x40_S1000x40_1_0_0_1_n_n.contr.Idx) :
    (dot_S1000x2048_S2048x40_S1000x40_1_0_0_1_n_n.rhsIdx j r 1).val = (j 1).val := by
  unfold DotDims.rhsIdx
  rw [dif_neg (show ¬(1 : Fin S2048x40.rank) ∈ dot_S1000x2048_S2048x40_S1000x40_1_0_0_1_n_n.rhsBatch by decide),
    dif_pos (show (1 : Fin S2048x40.rank) ∈ dot_S1000x2048_S2048x40_S1000x40_1_0_0_1_n_n.rhsNonContracting by decide)]
  rfl

/-! ## The body's arithmetic at one entry of the block -/

/-- The block product into the zero array, at row `p` and column `q`, is the sum over the 2048 shared coordinates. -/
theorem product_at (a : FVec Ideal S1000x2048 .bf16) (w : FVec Ideal S2048x40 .bf16) (p : Fin 1000) (q : Fin 40) :
    FloatOps.matmul dot_S1000x2048_S2048x40_S1000x40_1_0_0_1_n_n none a w (constant S1000x40 .f32 0x00000000#32) (ix2 p q)
      = ∑ k : Fin 2048, a (ix2 p k) * w (ix2 k q) := by
  rw [Ideal.matmul_constant_zero_apply,
    ← Equiv.sum_comp (contrEquiv1 dot_S1000x2048_S2048x40_S1000x40_1_0_0_1_n_n 2048 rfl rfl).symm]
  refine Finset.sum_congr rfl fun k _ => ?_
  have hk := contrEquiv1_symm_val dot_S1000x2048_S2048x40_S1000x40_1_0_0_1_n_n 2048 rfl rfl k
  have el : dot_S1000x2048_S2048x40_S1000x40_1_0_0_1_n_n.lhsIdx (ix2 p q)
      ((contrEquiv1 dot_S1000x2048_S2048x40_S1000x40_1_0_0_1_n_n 2048 rfl rfl).symm k) = ix2 p k :=
    funext fun ax => Fin.ext (by
      match ax with
      | ⟨0, _⟩ => exact lhs_row _ _
      | ⟨1, _⟩ => exact (lhs_contr _ _).trans hk)
  have er : dot_S1000x2048_S2048x40_S1000x40_1_0_0_1_n_n.rhsIdx (ix2 p q)
      ((contrEquiv1 dot_S1000x2048_S2048x40_S1000x40_1_0_0_1_n_n 2048 rfl rfl).symm k) = ix2 k q :=
    funext fun ax => Fin.ext (by
      match ax with
      | ⟨0, _⟩ => exact (rhs_contr _ _).trans hk
      | ⟨1, _⟩ => exact rhs_col _ _)
  rw [el, er]

/-- The one-row bias, broadcast down the block, read at row `p`, column `q`: the bias at column `q`. -/
theorem bias_at (b : Vec Ideal S1x40 .f32) (p : Fin 1000) (q : Fin 40) :
    broadcastTo S1000x40 (shapeCast S1x40 b Facts₀.shapeCasts_S1x40_S1x40) Facts₀.broadcasts_S1x40_S1000x40 (ix2 p q)
      = b (ix2 0 q) := by
  rw [shapeCast_self]
  exact broadcastTo_apply b _ (ix2 p q) (ix2 0 q) (fun ax => by
    match ax with
    | ⟨0, _⟩ => rfl
    | ⟨1, _⟩ => rfl)

/-- What the body stores at row `p`, column `q` of the block, from the three blocks it loaded. -/
theorem stored_at (x0 : Vec Ideal S1000x2048 .f32) (x1 : Vec Ideal S2048x40 .f32) (x2 : Vec Ideal S1x40 .f32)
    (p : Fin 1000) (q : Fin 40) :
    k1_pay1 (F := Ideal) x0 x1 x2 (ix2 p q)
      = (∑ k : Fin 2048, x0 (ix2 p k) * x1 (ix2 k q)) + x2 (ix2 0 q) := by
  unfold k1_pay1
  refine congrArg₂ (· + ·) ?_ (bias_at x2 p q)
  refine (product_at _ _ p q).trans ?_
  refine Finset.sum_congr rfl fun k _ => ?_
  show shapeCast S1000x2048 x0 Facts₀.shapeCasts_S1000x2048_S1000x2048 (ix2 p k) * x1 (ix2 k q) = _
  rw [shapeCast_self]

/-! ## From the ten blocks to the whole array -/

variable (V : (c : Dev nD) → (b : Ref sig .tc) → Buf (Elt Ideal) ((c : Thread nD τ).loc b))

theorem zero_offsets : (![0, 0] : Fin 2 → Nat) = fun _ => 0 := funext fun a => by fin_cases a <;> rfl

/-- Where each window's block sits at grid point `t`: the activation rows and the output rows move together, block
    `t` along the rows; the weights and the bias are one block, fetched whole. -/
theorem block_indices : ∀ t : Fin cfg1.N,
    win1_0.index t (0 : Fin 2) = win1_3.index t (0 : Fin 2) ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Layer two of the arrays the region is entered with, plus the entered one-row bias read along its row. -/
def entered (c : Dev nD) : S10000x40.Idx → EReal :=
  fun i => dense2At (V c main_v50) (V c main_arg4) (i 0) (i 1) + (V c main_v52 (ix2 0 (i 1)) : EReal)

/-- Row `p` of the activation block at point `t` is row `1000·t + p` of the activation array. -/
theorem hidden_read (c : Dev nD) (t : Fin cfg1.N) (p : Fin 1000) (k : Fin 2048) (r : Fin 10000)
    (hr : r.val = t.val * 1000 + p.val) :
    iblk1 V c 0 t (ix2 p k) = V c main_v50 (ix2 r k) := by
  obtain ⟨e00, e01, -, -, -, -, e30, -⟩ := block_indices t
  show V c main_v50 (((cfg1.win 0).blk t).view.emb (ix2 p k)) = V c main_v50 (ix2 r k)
  refine congrArg (V c main_v50) (funext fun a => Fin.ext ?_)
  match a with
  | ⟨0, _⟩ => show win1_0.index t (0 : Fin 2) * 1000 + 1 * p.val = r.val; omega
  | ⟨1, _⟩ => show win1_0.index t (1 : Fin 2) * 2048 + 1 * k.val = k.val; omega

/-- The weight block at every point is the whole weight array. -/
theorem weight_read (c : Dev nD) (t : Fin cfg1.N) (k : Fin 2048) (q : Fin 40) :
    iblk1 V c 1 t (ix2 k q) = V c main_arg4 (ix2 k q) := by
  obtain ⟨-, -, e10, e11, -, -, -, -⟩ := block_indices t
  show V c main_arg4 (((cfg1.win 1).blk t).view.emb (ix2 k q)) = V c main_arg4 (ix2 k q)
  refine congrArg (V c main_arg4) (funext fun a => Fin.ext ?_)
  match a with
  | ⟨0, _⟩ => show win1_1.index t (0 : Fin 2) * 2048 + 1 * k.val = k.val; omega
  | ⟨1, _⟩ => show win1_1.index t (1 : Fin 2) * 40 + 1 * q.val = q.val; omega

/-- The bias block at every point is the whole one-row bias. -/
theorem bias_read (c : Dev nD) (t : Fin cfg1.N) (q : Fin 40) :
    iblk1 V c 2 t (ix2 0 q) = V c main_v52 (ix2 0 q) := by
  obtain ⟨-, -, -, -, e20, e21, -, -⟩ := block_indices t
  show V c main_v52 (((cfg1.win 2).blk t).view.emb (ix2 0 q)) = V c main_v52 (ix2 0 q)
  refine congrArg (V c main_v52) (funext fun a => Fin.ext ?_)
  match a with
  | ⟨0, _⟩ => show win1_2.index t (0 : Fin 2) * 1 + 1 * 0 = 0; omega
  | ⟨1, _⟩ => show win1_2.index t (1 : Fin 2) * 40 + 1 * q.val = q.val; omega

/-- What grid point `t` writes back is block `t` of that function of the entered arrays. -/
theorem flushed_eq (c : Dev nD) (t : Fin cfg1.N) :
    (dat1 V c).flushed 3 t = ((cfg1.win 3).blk t).view.read (Elt Ideal) (entered V c) := by
  show (cfg1.win 3).cut (grid1.coords t) ((dat1 V c).after 3 t) = _
  rw [after1_3]
  unfold out1_3
  rw [View.canon_unit_zero zero_offsets]
  simp only [View.ld_unit_zero (S := S1000x2048) zero_offsets, View.ld_unit_zero (S := S2048x40) zero_offsets,
    View.ld_unit_zero (S := S1x40) zero_offsets]
  obtain ⟨-, -, -, -, -, -, e30, e31⟩ := block_indices t
  funext j
  obtain ⟨p, q, rfl⟩ : ∃ (p : Fin 1000) (q : Fin 40), (j : S1000x40.Idx) = ix2 p q := ⟨j 0, j 1, eq_ix2 _⟩
  have ht : t.val < 10 := by have h : t.val < grid1.N := t.isLt; have hN : grid1.N = 10 := N_1; omega
  have hp : p.val < 1000 := p.isLt
  have hr : t.val * 1000 + p.val < 10000 := by omega
  have row : ((cfg1.win 3).blk t).view.emb (ix2 p q) = ix2 (⟨t.val * 1000 + p.val, hr⟩ : Fin 10000) q :=
    funext fun a => Fin.ext (by
      match a with
      | ⟨0, _⟩ => show win1_3.index t (0 : Fin 2) * 1000 + 1 * p.val = t.val * 1000 + p.val; omega
      | ⟨1, _⟩ => show win1_3.index t (1 : Fin 2) * 40 + 1 * q.val = q.val; omega)
  show k1_pay1 (iblk1 V c 0 t) (iblk1 V c 1 t) (iblk1 V c 2 t) (ix2 p q)
    = entered V c (((cfg1.win 3).blk t).view.emb (ix2 p q))
  rw [row]
  refine (stored_at (iblk1 V c 0 t) (iblk1 V c 1 t) (iblk1 V c 2 t) p q).trans ?_
  simp only [hidden_read V c t p _ ⟨t.val * 1000 + p.val, hr⟩ rfl, weight_read V c t, bias_read V c t]
  rfl

/-- An index of the output array is in point `t`'s block iff each coordinate is in the block's range. -/
theorem mem_block (t : Fin cfg1.N) (i : S10000x40.Idx) :
    i ∈ ((cfg1.win 3).blk t).view.set ↔ ∀ a : Fin 2, win1_3.index t a * S1000x40.size a ≤ (i a).val
      ∧ (i a).val < win1_3.index t a * S1000x40.size a + S1000x40.size a := by
  show i ∈ ((View.whole main_v53).slice (win1_3.rect t)).set ↔ _
  rw [View.set_slice_whole, Rect.mem_set_unit]
  exact Iff.rfl

/-- Every index of the output array is in the block of the point its row falls in: row `r` is in block `r / 1000`. -/
theorem covered (i : S10000x40.Idx) :
    ∃ t : Fin cfg1.N, (cfg1.win 3).flush t = true ∧ i ∈ ((cfg1.win 3).blk t).view.set := by
  have hi0 : (i 0).val < 10000 := (i 0).isLt
  have hi1 : (i 1).val < 40 := (i 1).isLt
  have hN : grid1.N = 10 := N_1
  have hlt : (i 0).val / 1000 < grid1.N := by omega
  refine ⟨⟨(i 0).val / 1000, hlt⟩, flush1_3 _, ?_⟩
  obtain ⟨-, -, -, -, -, -, e30, e31⟩ := block_indices ⟨(i 0).val / 1000, hlt⟩
  have e30' : win1_3.index ⟨(i 0).val / 1000, hlt⟩ (0 : Fin 2) = (i 0).val / 1000 := e30
  rw [mem_block]
  intro a
  match a with
  | ⟨0, _⟩ =>
    show win1_3.index ⟨(i 0).val / 1000, hlt⟩ (0 : Fin 2) * 1000 ≤ (i 0).val
      ∧ (i 0).val < win1_3.index ⟨(i 0).val / 1000, hlt⟩ (0 : Fin 2) * 1000 + 1000
    omega
  | ⟨1, _⟩ =>
    show win1_3.index ⟨(i 0).val / 1000, hlt⟩ (1 : Fin 2) * 40 ≤ (i 1).val
      ∧ (i 1).val < win1_3.index ⟨(i 0).val / 1000, hlt⟩ (1 : Fin 2) * 40 + 40
    omega

/-- After the region the output array holds that function of the arrays the region was entered with. -/
theorem final (c : Dev nD) : (dat1 V c).arrAt 3 cfg1.N = entered V c :=
  (dat1 V c).arrAt_eq_of_cover 3 (entered V c) (fun t _ => flushed_eq V c t) covered

/-- Entered with a bias row of zero words, the region leaves the plain product: adding zero changes nothing. -/
theorem entered_of_zero_bias (c : Dev nD)
    (hb : ∀ q : Fin 40, (V c main_v52 (ix2 0 q) : EReal) = Ideal.ofBits .f32 0x00000000#32) :
    entered V c = dense2 (V c main_v50) (V c main_arg4) := by
  funext i
  show dense2At (V c main_v50) (V c main_arg4) (i 0) (i 1) + (V c main_v52 (ix2 0 (i 1)) : EReal) = _
  exact (congrArg (dense2At (V c main_v50) (V c main_arg4) (i 0) (i 1) + ·) (hb (i 1))).trans (add_zero_word _)

end Cert.KernelIdeal.Layer2

end
-- ==== Proof.KernelFold.lean ====
/-
  The result buffer's contents after the run, read back stretch by stretch to a function of the arguments.

  After the last host stretch the result is the propagation (Tail.lean) of five buffers as the second region leaves
  them.  Four of them — the edge sources, the edge targets, the inverse square roots of the degrees, and the class
  bias — are written by no region and by neither of the later host stretches, so they still hold what the first host
  stretch (or the launch) put there.  The fifth is the second region's output: the second dense layer of the
  buffers that region was entered with — the first region's output, the second weight array as launched, and a
  bias row of zero words, which drops out.  The first region's output in turn is the first dense layer of the
  aggregated features the first host stretch computed, the first weight array as launched, and the first bias
  reshaped to one row.  So the result is
      propagate (dense2 (dense1 aggregate W1 b1) W2) src dst dinv b2,
  where `aggregate`, `src`, `dst`, `dinv` are what the first host stretch leaves in their buffers.
-/
import proofs.«154328_j48473000903026_1_alg».proof.Proof.Gen.KernelIdeal.Frame
import proofs.«154328_j48473000903026_1_alg».proof.Proof.Tail
import proofs.«154328_j48473000903026_1_alg».proof.Proof.Layer1Block
import proofs.«154328_j48473000903026_1_alg».proof.Proof.Layer2Block
import Idealize.ShloMosaic.Lib.StableHlo.Run
import Idealize.ShloMosaic.Lib.Pipeline.Value
import Idealize.ShloMosaic.Lib.ValueIdx

set_option maxRecDepth 16384

noncomputable section

namespace Cert.KernelIdeal.Fold

open Cert.KernelIdeal Cert.KernelIdeal.Gen Cert.Gcn
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg) (c : Dev nD)

/-! ## The last host stretch -/

/-- The result buffer after the last stretch is the propagation of the buffers the second region leaves. -/
theorem last_stretch :
    W5 m ρ c (Proc.devRef .tc main_v89)
      = propagate (V4 m ρ c main_v53) (V4 m ρ c main_v1) (V4 m ρ c main_v3) (V4 m ρ c main_v15) (V4 m ρ c main_arg5) := by
  show StableHlo.after hostOps2 (W4 m ρ c) (Proc.devRef .tc main_v89) = _
  after_results_simp <;> rfl

/-! ## Buffers that nothing after the first host stretch writes -/

/-- The second host stretch (the zero bias) leaves a buffer it does not write as the first region left it. -/
theorem src_kept : V4 m ρ c main_v1 = V1 m ρ c main_v1 :=
  (W4_of_ne m ρ c main_v1 (by decide)).trans
    ((show StableHlo.after hostOps1 (W2 m ρ c) (Proc.devRef .tc main_v1) = W2 m ρ c (Proc.devRef .tc main_v1) by
        after_results <;> rfl).trans (W2_of_ne m ρ c main_v1 (by decide)))

theorem dst_kept : V4 m ρ c main_v3 = V1 m ρ c main_v3 :=
  (W4_of_ne m ρ c main_v3 (by decide)).trans
    ((show StableHlo.after hostOps1 (W2 m ρ c) (Proc.devRef .tc main_v3) = W2 m ρ c (Proc.devRef .tc main_v3) by
        after_results <;> rfl).trans (W2_of_ne m ρ c main_v3 (by decide)))

theorem dinv_kept : V4 m ρ c main_v15 = V1 m ρ c main_v15 :=
  (W4_of_ne m ρ c main_v15 (by decide)).trans
    ((show StableHlo.after hostOps1 (W2 m ρ c) (Proc.devRef .tc main_v15) = W2 m ρ c (Proc.devRef .tc main_v15) by
        after_results <;> rfl).trans (W2_of_ne m ρ c main_v15 (by decide)))

theorem class_bias_kept : V4 m ρ c main_arg5 = m ((c.tc : Thread nD τ).loc main_arg5) :=
  (W4_of_ne m ρ c main_arg5 (by decide)).trans
    ((show StableHlo.after hostOps1 (W2 m ρ c) (Proc.devRef .tc main_arg5) = W2 m ρ c (Proc.devRef .tc main_arg5) by
        after_results <;> rfl).trans ((W2_of_ne m ρ c main_arg5 (by decide)).trans
      (show StableHlo.after hostOps0 (W0 m ρ c) (Proc.devRef .tc main_arg5) = _ by after_results_simp <;> rfl)))

/-! ## What the second region is entered with -/

/-- Its activations are the first region's output. -/
theorem hidden_entered : V3 m ρ c main_v50 = (dat0 (V1 m ρ) c).arrAt 3 cfg0.N :=
  (show StableHlo.after hostOps1 (W2 m ρ c) (Proc.devRef .tc main_v50) = W2 m ρ c (Proc.devRef .tc main_v50) by
      after_results <;> rfl).trans (W2_arr m ρ c 3)

/-- Its weights are the second weight array as launched. -/
theorem weights2_entered : V3 m ρ c main_arg4 = m ((c.tc : Thread nD τ).loc main_arg4) :=
  (show StableHlo.after hostOps1 (W2 m ρ c) (Proc.devRef .tc main_arg4) = W2 m ρ c (Proc.devRef .tc main_arg4) by
      after_results <;> rfl).trans ((W2_of_ne m ρ c main_arg4 (by decide)).trans
    (show StableHlo.after hostOps0 (W0 m ρ c) (Proc.devRef .tc main_arg4) = _ by after_results_simp <;> rfl))

/-- Its bias row is the zero word in every column. -/
theorem zero_bias_entered (q : Fin 40) : (V3 m ρ c main_v52 (ix2 0 q) : EReal) = Ideal.ofBits .f32 0x00000000#32 := by
  have h : V3 m ρ c main_v52
      = shapeCast S1x40 (broadcastInDim S40 ![] Facts₀.bcast_S_S40 (constant (F := Ideal) S_ .f32 0x00000000#32))
          Facts₀.shapeCasts_S40_S1x40 := by
    show StableHlo.after hostOps1 (W2 m ρ c) (Proc.devRef .tc main_v52) = _
    after_results <;> rfl
  rw [h]
  rfl

/-! ## What the first region is entered with -/

/-- Its weights are the first weight array as launched. -/
theorem weights1_entered : V1 m ρ c main_arg2 = m ((c.tc : Thread nD τ).loc main_arg2) := by
  show StableHlo.after hostOps0 (W0 m ρ c) (Proc.devRef .tc main_arg2) = _
  after_results_simp <;> rfl

/-- Its bias row is the first bias, reshaped to one row: column `q` of the row is entry `q` of the bias. -/
theorem bias1_entered (q : Fin 2048) :
    V1 m ρ c main_v49 (ix2 0 q) = m ((c.tc : Thread nD τ).loc main_arg3) (ix1 q) := by
  have h : V1 m ρ c main_v49 = shapeCast S1x2048 (m ((c.tc : Thread nD τ).loc main_arg3)) Facts₀.shapeCasts_S2048_S1x2048 := by
    show StableHlo.after hostOps0 (W0 m ρ c) (Proc.devRef .tc main_v49) = _
    after_results_simp <;> rfl
  rw [h]
  refine (shapeCast_addUnit_apply (n := 1) ![2048] (m ((c.tc : Thread nD τ).loc main_arg3)) _ (ix2 0 q)).trans ?_
  exact congrArg _ (funext fun a => by match a with | ⟨0, _⟩ => rfl)

/-! ## The result as a function of the arguments and of the first host stretch's values -/

theorem result_value :
    W5 m ρ c (Proc.devRef .tc main_v89)
      = propagate
          (dense2 (dense1 (V1 m ρ c main_v48) (m ((c.tc : Thread nD τ).loc main_arg2))
              (fun q => m ((c.tc : Thread nD τ).loc main_arg3) (ix1 q)))
            (m ((c.tc : Thread nD τ).loc main_arg4)))
          (V1 m ρ c main_v1) (V1 m ρ c main_v3) (V1 m ρ c main_v15) (m ((c.tc : Thread nD τ).loc main_arg5)) := by
  have hout2 : V4 m ρ c main_v53 = dense2 (V3 m ρ c main_v50) (V3 m ρ c main_arg4) :=
    (W4_arr m ρ c 3).trans ((Layer2.final (V3 m ρ) c).trans
      (Layer2.entered_of_zero_bias (V3 m ρ) c (zero_bias_entered m ρ c)))
  have hout1 : (dat0 (V1 m ρ) c).arrAt 3 cfg0.N
      = dense1 (V1 m ρ c main_v48) (m ((c.tc : Thread nD τ).loc main_arg2))
          (fun q => m ((c.tc : Thread nD τ).loc main_arg3) (ix1 q)) := by
    rw [Layer1.final (V1 m ρ) c]
    unfold Layer1.entered
    rw [weights1_entered m ρ c]
    exact congrArg _ (funext fun q => bias1_entered m ρ c q)
  rw [last_stretch, src_kept, dst_kept, dinv_kept, class_bias_kept, hout2, hidden_entered, weights2_entered, hout1]

end Cert.KernelIdeal.Fold

end
-- ==== Proof.Prefix.lean ====
/-
  What the first host stretch leaves is what the reference computes first.

  Before its first region the program normalises the graph: it splits the edge list into sources and targets, counts
  each node's incoming edges plus one, takes the inverse square root, and aggregates the node features over the edges
  with the self loops.  The reference begins with the same forty-eight operations on the same arguments.  So the four
  buffers the later stretches read — sources, targets, inverse square roots of the degrees, aggregated features —
  hold, after that stretch, the reference's own stage values of the launched arguments.  Nothing is computed here:
  each side's operations are listed and the two lists are the same.
-/
import proofs.«154328_j48473000903026_1_alg».proof.Proof.Gen.KernelIdeal.Frame
import proofs.«154328_j48473000903026_1_alg».proof.Proof.Gen.ReferenceIdeal.Read
import Idealize.ShloMosaic.Lib.StableHlo.Run

set_option maxRecDepth 16384

noncomputable section

namespace Cert.Proof.Prefix

open Idealize.ShloMosaic Idealize.ShloMosaic.TcCoe Idealize.SL.Sem Idealize.ShloMosaic.StableHlo

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

/-- The edge sources. -/
theorem src_eq :
    Cert.KernelIdeal.Gen.V1 m ρ c Cert.KernelIdeal.main_v1
      = Cert.ReferenceIdeal.Read.val_main_v1 (F := Ideal)
          (m ((c.tc : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v1) = _
  after_results_simp <;> rfl

/-- The edge targets. -/
theorem dst_eq :
    Cert.KernelIdeal.Gen.V1 m ρ c Cert.KernelIdeal.main_v3
      = Cert.ReferenceIdeal.Read.val_main_v3 (F := Ideal)
          (m ((c.tc : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v3) = _
  after_results_simp <;> rfl

/-- The inverse square roots of the degrees. -/
theorem dinv_eq :
    Cert.KernelIdeal.Gen.V1 m ρ c Cert.KernelIdeal.main_v15
      = Cert.ReferenceIdeal.Read.val_main_v15 (F := Ideal)
          (m ((c.tc : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v15) = _
  after_results_simp <;> rfl

/-- The aggregated node features. -/
theorem aggregate_eq :
    Cert.KernelIdeal.Gen.V1 m ρ c Cert.KernelIdeal.main_v48
      = Cert.ReferenceIdeal.Read.val_main_v48 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1)) := by
  show StableHlo.after Cert.KernelIdeal.Gen.hostOps0 (Cert.KernelIdeal.Gen.W0 m ρ c) (Proc.devRef .tc Cert.KernelIdeal.main_v48) = _
  after_results_simp <;> rfl

end Cert.Proof.Prefix

end
-- ==== Proof.RefValue.lean ====
/-
  The reference's result as the same function of the same pieces.

  The reference computes the aggregated features, multiplies them by the first weights, adds the first bias
  broadcast over the rows and clamps below at zero; multiplies the result by the second weights; and propagates that
  over the edges and adds the class bias.  Read at row `p`, column `q`, its first product is
  `∑ₖ aggregate[p,k] · W1[k,q]`, the broadcast bias is `b1[q]`, and the clamp is the maximum with the zero word:
  layer one of DenseSpec.  Its second product at row `p`, column `q` is `∑ₖ hidden[p,k] · W2[k,q]`: layer two.
  Its last thirty-six operations are, one for one, the propagation of Tail.lean applied to that product, the edge
  endpoints, the inverse square roots of the degrees and the class bias.
-/
import proofs.«154328_j48473000903026_1_alg».proof.Proof.Gen.ReferenceIdeal.Read
import proofs.«154328_j48473000903026_1_alg».proof.Proof.Tail
import proofs.«154328_j48473000903026_1_alg».proof.Proof.DenseSpec
import Idealize.ShloMosaic.Lib.ValueIdx

set_option maxRecDepth 16384

noncomputable section

open scoped BigOperators

namespace Cert.ReferenceIdeal.RefValue

open Cert.ReferenceIdeal Cert.ReferenceIdeal.Read Cert.Gcn
open Idealize.ShloMosaic Idealize.ShloMosaic.TcCoe Idealize.ShloMosaic.ValueIdx Idealize.SL.Sem

variable (x0 : (⟨S10000x512, .f32⟩ : BufTy).Contents (Elt Ideal)) (x1 : (⟨S2x320000, .i32⟩ : BufTy).Contents (Elt Ideal))
  (x2 : (⟨S512x2048, .f32⟩ : BufTy).Contents (Elt Ideal)) (x3 : (⟨S2048, .f32⟩ : BufTy).Contents (Elt Ideal))
  (x4 : (⟨S2048x40, .f32⟩ : BufTy).Contents (Elt Ideal)) (x5 : (⟨S40, .f32⟩ : BufTy).Contents (Elt Ideal))

/-- The reference's hidden activations are layer one of its aggregated features, the first weights and the first bias. -/
theorem hidden_eq :
    val_main_v53 (F := Ideal) x0 x1 x2 x3 = dense1 (val_main_v48 (F := Ideal) x0 x1) x2 (fun q => x3 (ix1 q)) := by
  funext i
  obtain ⟨p, q, rfl⟩ : ∃ (p : Fin 10000) (q : Fin 2048), i = ix2 p q := ⟨i 0, i 1, eq_ix2 i⟩
  rw [val_main_v53_apply, val_main_v52_apply, val_main_v49_apply, val_main_v51_apply, val_main_v50_apply,
    val_main_call0_v0_apply, val_main_call0_cst_apply]
  have el : ∀ k : Fin 512, lidx_main_v49 (ix2 p q) k = ix2 p k := fun k => funext fun a => Fin.ext (by
    match a with
    | ⟨0, _⟩ => rfl
    | ⟨1, _⟩ => rfl)
  have er : ∀ k : Fin 512, ridx_main_v49 (ix2 p q) k = ix2 k q := fun k => funext fun a => Fin.ext (by
    match a with
    | ⟨0, _⟩ => rfl
    | ⟨1, _⟩ => rfl)
  have eb : idx_main_v50 (idx_main_v51 (ix2 p q)) = ix1 q := funext fun a => Fin.ext (by
    match a with
    | ⟨0, _⟩ => rfl)
  simp only [el, er, eb]
  rfl

/-- The reference's second product is layer two of its hidden activations and the second weights. -/
theorem logits_eq :
    val_main_v54 (F := Ideal) x0 x1 x2 x3 x4 = dense2 (val_main_v53 (F := Ideal) x0 x1 x2 x3) x4 := by
  funext i
  obtain ⟨p, q, rfl⟩ : ∃ (p : Fin 10000) (q : Fin 40), i = ix2 p q := ⟨i 0, i 1, eq_ix2 i⟩
  rw [val_main_v54_apply]
  have el : ∀ k : Fin 2048, lidx_main_v54 (ix2 p q) k = ix2 p k := fun k => funext fun a => Fin.ext (by
    match a with
    | ⟨0, _⟩ => rfl
    | ⟨1, _⟩ => rfl)
  have er : ∀ k : Fin 2048, ridx_main_v54 (ix2 p q) k = ix2 k q := fun k => funext fun a => Fin.ext (by
    match a with
    | ⟨0, _⟩ => rfl
    | ⟨1, _⟩ => rfl)
  simp only [el, er]
  rfl

/-- The reference's last operations are the propagation of its second product. -/
theorem tail_eq :
    val_main_v90 (F := Ideal) x0 x1 x2 x3 x4 x5
      = propagate (val_main_v54 (F := Ideal) x0 x1 x2 x3 x4) (val_main_v1 (F := Ideal) x1) (val_main_v3 (F := Ideal) x1)
          (val_main_v15 (F := Ideal) x1) x5 := rfl

/-- The whole network as one function of the six argument arrays: the propagation of the two dense layers of the
    aggregated features.  Both programs' results are stated with this one term. -/
def network : (⟨S10000x40, .f32⟩ : BufTy).Contents (Elt Ideal) :=
  propagate
    (dense2 (dense1 (val_main_v48 (F := Ideal) x0 x1) x2 (fun q => x3 (ix1 q))) x4)
    (val_main_v1 (F := Ideal) x1) (val_main_v3 (F := Ideal) x1) (val_main_v15 (F := Ideal) x1) x5

/-- The reference's result, from any memory, is the network of the launched arguments. -/
theorem result_value (m : (ℓ : Loc nD τ sig) → Buf (Elt Ideal) ℓ) (c : Dev nD) :
    Cert.ReferenceIdeal.Value.res_main_v90 (F := Ideal) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  rw [val_main_v90_eq, tail_eq, logits_eq, hidden_eq]
  rfl

end Cert.ReferenceIdeal.RefValue

end
-- ==== Proof.KernelValue.lean ====
/-
  The program's result is the network of the launched arguments.

  The read-back of the run (KernelFold.lean) leaves the result as the propagation of the two dense layers of what the
  first host stretch put in four buffers; those four are the reference's own first stage values of the launched
  arguments (Prefix.lean).  Substituting gives exactly the term the reference's result is stated with.
-/
import proofs.«154328_j48473000903026_1_alg».proof.Proof.KernelFold
import proofs.«154328_j48473000903026_1_alg».proof.Proof.Prefix
import proofs.«154328_j48473000903026_1_alg».proof.Proof.RefValue

set_option maxRecDepth 16384

noncomputable section

namespace Cert.Proof.KernelValue

open Idealize.ShloMosaic Idealize.ShloMosaic.TcCoe Idealize.SL.Sem

variable (m : (ℓ : Loc Cert.KernelIdeal.nD Cert.KernelIdeal.τ Cert.KernelIdeal.sig) → Buf (Elt Ideal) ℓ)
  (ρ : Dev Cert.KernelIdeal.nD → PrngReg) (c : Dev Cert.KernelIdeal.nD)

theorem result_value :
    Cert.KernelIdeal.Gen.W5 m ρ c (Proc.devRef .tc Cert.KernelIdeal.main_v89)
      = Cert.ReferenceIdeal.RefValue.network
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3))
          (m ((c.tc : Thread Cert.KernelIdeal.nD Cert.KernelIdeal.τ).loc Cert.KernelIdeal.main_arg4))
          (m ((c.tc : Thread Cert.KernelIdeal.nD Cert.KernelIdeal.τ).loc Cert.KernelIdeal.main_arg5)) := by
  rw [Cert.KernelIdeal.Fold.result_value, Cert.Proof.Prefix.src_eq, Cert.Proof.Prefix.dst_eq,
    Cert.Proof.Prefix.dinv_eq, Cert.Proof.Prefix.aggregate_eq]
  rfl

end Cert.Proof.KernelValue

end
-- ==== Proof.lean ====
/-
  A two-layer graph convolution: the program with two pipelined dense layers against the plain array program.

  Both programs first normalise the graph (edge sources and targets, inverse square roots of the degrees) and
  aggregate the node features over the edges with the self loops; both end by propagating a 10000 × 40 array over the
  edges and adding the class bias.  In between, the reference multiplies the aggregate by the first weights, adds the
  first bias, clamps at zero and multiplies by the second weights; the program does the same in two regions of ten
  row blocks each — a product accumulated into a zero array, the bias added as a one-row array, the second region
  with a bias row of zeros.  On the extended reals a change of float format is the identity, a product accumulated
  into zero is the bare sum, and adding zero changes nothing, infinities included; sums are only ever re-indexed,
  never re-associated across a product.  So both results are ONE function of the six argument arrays
  (`RefValue.network`), and no step needs the inputs to be finite: the precondition is never opened.

  The three frames are the generated ones (the reference's is its generated run with the result dropped); the
  idealisation rewrote nothing, so `preserves` has nothing to state.
-/
import proofs.«154328_j48473000903026_1_alg».proof.Defs
import proofs.«154328_j48473000903026_1_alg».proof.Proof.Gen.Kernel
import proofs.«154328_j48473000903026_1_alg».proof.Proof.Gen.Kernel.Skeleton
import proofs.«154328_j48473000903026_1_alg».proof.Proof.Gen.Kernel.Launch
import proofs.«154328_j48473000903026_1_alg».proof.Proof.Gen.Kernel.Points
import proofs.«154328_j48473000903026_1_alg».proof.Proof.Gen.Kernel.Frame
import proofs.«154328_j48473000903026_1_alg».proof.Proof.Gen.KernelIdeal
import proofs.«154328_j48473000903026_1_alg».proof.Proof.Gen.KernelIdeal.Skeleton
import proofs.«154328_j48473000903026_1_alg».proof.Proof.Gen.KernelIdeal.Launch
import proofs.«154328_j48473000903026_1_alg».proof.Proof.Gen.KernelIdeal.Points
import proofs.«154328_j48473000903026_1_alg».proof.Proof.Gen.KernelIdeal.Frame
import proofs.«154328_j48473000903026_1_alg».proof.Proof.Gen.ReferenceIdeal
import proofs.«154328_j48473000903026_1_alg».proof.Proof.Gen.ReferenceIdeal.Run
import proofs.«154328_j48473000903026_1_alg».proof.Proof.Gen.ReferenceIdeal.Read
import proofs.«154328_j48473000903026_1_alg».proof.Proof.Gen.Pre_finite_inputs
import proofs.«154328_j48473000903026_1_alg».proof.Proof.KernelRun
import proofs.«154328_j48473000903026_1_alg».proof.Proof.KernelValue
import proofs.«154328_j48473000903026_1_alg».proof.Proof.RefValue
import Idealize.ShloMosaic.Adequacy
import Idealize.ShloMosaic.Init

noncomputable section

namespace Cert.Proof

open Idealize.ShloMosaic Idealize.ShloMosaic.TcCoe Idealize.SL.Sem

/-- The word-level program runs to the end without a fault and leaves its arguments as launched. -/
theorem frame_kernel : Cert.frame_Kernel := fun m ρ _ => Cert.Kernel.Gen.frame m ρ

/-- So does the program read on the extended reals. -/
theorem frame_ideal : Cert.frame_KernelIdeal := fun m ρ _ => Cert.KernelIdeal.Gen.frame m ρ

/-- So does the reference: its run, with what it says about the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealisation rewrote no operation. -/
theorem preserves : Cert.preserves_Kernel_KernelIdeal := trivial

/-- Equal arguments give equal networks. -/
theorem network_congr {a0 a0' a1 a1' a2 a2' a3 a3' a4 a4' a5 a5'} (h0 : a0' = a0) (h1 : a1' = a1) (h2 : a2' = a2)
    (h3 : a3' = a3) (h4 : a4' = a4) (h5 : a5' = a5) :
    Cert.ReferenceIdeal.RefValue.network a0' a1' a2' a3' a4' a5' = Cert.ReferenceIdeal.RefValue.network a0 a1 a2 a3 a4 a5 := by
  subst h0 h1 h2 h3 h4 h5; rfl

/-- From memories that agree on the six arguments both programs end with the network of those arguments in their
    result buffers, and with the arguments unchanged. -/
theorem algebraic : Cert.algebraic_KernelIdeal_ReferenceIdeal := by
  intro m ρ m' ρ' _ hagree
  refine ⟨fun c => Cert.KernelIdeal.Gen.W5 m ρ c (Proc.devRef .tc Cert.KernelIdeal.main_v89),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5⟩ := hagree c
  exact ((Cert.ReferenceIdeal.RefValue.result_value m' c).trans (network_congr h0 h1 h2 h3 h4 h5)).trans
    (Cert.Proof.KernelValue.result_value m ρ c).symm

theorem claim : Cert.Claim :=
  ⟨Cert.Kernel.Gen.facts, Cert.KernelIdeal.Gen.facts, Cert.ReferenceIdeal.Gen.facts, Cert.Pre_finite_inputs.Gen.facts,
    frame_kernel, frame_ideal, frame_reference, preserves, algebraic⟩

end Cert.Proof

end
